-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x1 .f32) (main_arg9 : FVec F S1 .f32) (main_arg10 : FVec F S128x1 .f32) (main_arg11 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x1 .f32) (main_arg9 : FVec F S1 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x1 .f32) (main_arg9 : FVec F S1 .f32) (main_arg10 : FVec F S128x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩
abbrev S1x1 : Shape := ⟨2, ![1, 1]⟩

abbrev nBuf : Space → Nat
  | .hbm => 63
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .bf16⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .bf16⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .bf16⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S100000x1, .f32⟩
  | .hbm, ⟨61, _⟩ => ⟨S100000x1, .f32⟩
  | .hbm, ⟨62, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .bf16⟩
  | .local _ .vmem, ⟨16, _⟩ => ⟨S5000x128, .bf16⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S128x1, .f32⟩
  | .local _ .vmem, ⟨21, _⟩ => ⟨S1, .f32⟩
  | .local _ .vmem, ⟨22, _⟩ => ⟨S128x1, .f32⟩
  | .local _ .vmem, ⟨23, _⟩ => ⟨S1, .f32⟩
  | .local _ .vmem, ⟨24, _⟩ => ⟨S5000x1, .f32⟩
  | .local _ .vmem, ⟨25, _⟩ => ⟨S5000x1, .f32⟩
  | .local _ .vmem, ⟨26, _⟩ => ⟨S5000x1, .f32⟩
  | .local _ .vmem, ⟨27, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37_0 : Ref sig .tc := ⟨.hbm, 59, rfl⟩
abbrev main_v37_1 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25
abbrev cc1_sem11_0 : DmaSem sig := 26
abbrev cc1_sem11_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S5000x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .bf16 = 32 ∨ (Rect.block (s := S100000x128) S5000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S128x1.size a
  hwx1_6 : ∀ i : grid1.Coords, EltTy.bits .f32 = 32 ∨ (Rect.block (s := S128x1) S128x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x1.size a ≤ S128x1.size a
  hwx1_8 : ∀ i : grid1.Coords, EltTy.bits .f32 = 32 ∨ (Rect.block (s := S128x1) S128x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1.size a ≤ S1.size a
  hwx1_9 : ∀ i : grid1.Coords, EltTy.bits .f32 = 32 ∨ (Rect.block (s := S1) S1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x1.size a ≤ S100000x1.size a
  hwx1_10 : ∀ i : grid1.Coords, EltTy.bits .f32 = 32 ∨ (Rect.block (s := S100000x1) S5000x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x1.size a ≤ S100000x1.size a
  hwx1_11 : ∀ i : grid1.Coords, EltTy.bits .f32 = 32 ∨ (Rect.block (s := S100000x1) S5000x1.size (cc1_transform_11 i) (hinb1_11 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S128x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg11) S1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v37_0) S5000x1.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v37_1) S5000x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x1 : Shape := ⟨2, ![1, 1]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | .hbm, ⟨88, _⟩ => ⟨S100000x1, .f32⟩
  | .hbm, ⟨89, _⟩ => ⟨S1x1, .f32⟩
  | .hbm, ⟨90, _⟩ => ⟨S100000x1, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S_, .f32⟩
  | .hbm, ⟨95, _⟩ => ⟨S100000x1, .f32⟩
  | .hbm, ⟨96, _⟩ => ⟨S100000x1, .f32⟩
  | .hbm, ⟨97, _⟩ => ⟨S_, .f32⟩
  | .hbm, ⟨98, _⟩ => ⟨S100000x1, .f32⟩
  | .hbm, ⟨99, _⟩ => ⟨S100000x1, .f32⟩
  | .hbm, ⟨100, _⟩ => ⟨S100000x1, .f32⟩
  | .hbm, ⟨101, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_10 : Ref sig .tc := ⟨.hbm, 94, rfl⟩
abbrev main_v66 : Ref sig .tc := ⟨.hbm, 95, rfl⟩
abbrev main_v67 : Ref sig .tc := ⟨.hbm, 96, rfl⟩
abbrev main_cst_11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Spec.lean ====
/-
  The mathematics of a two-layer mean-aggregation network, over the extended reals.

  One layer takes, for each node `r`, the summed messages `A r`, a per-node scale `s r` (the reciprocal of the
  node's in-degree, at least one), the node's own features `h r`, two weight matrices and a bias, and returns
  `max (Σₖ (A r k · s r) · Wl k j + Σₖ h r k · Wr k j + b j) 0`.  A head is one affine map to a single column.

  The only law used that is not a rearrangement of sums is about the scale: for a divisor `y` that is not zero,
  `a · (1 / y) = a / y` on every extended real, the infinities included, and `max c 1` is never zero.
-/
import Idealize.ShloMosaic.PureOps.Ideal.Laws
import Idealize.ShloMosaic.Lib.IdealHost
import Idealize.ShloMosaic.Lib.ValueIdx

noncomputable section

namespace Cert.Sage

open Idealize.ShloMosaic Idealize.ShloMosaic.ValueIdx

/-- The float word of zero, as both programs print it. -/
abbrev zeroWord : EReal := Ideal.ofBits .f32 0x00000000#32

/-- The float word of one, as both programs print it. -/
abbrev oneWord : EReal := Ideal.ofBits .f32 0x3F800000#32

/-- One layer at node `r`, output feature `j`: the scaled messages through `Wl`, the node's own row through `Wr`,
    the bias, then the positive part. -/
def layerAt {n : Nat} (A : (⟨2, ![n, 128]⟩ : Shape).Idx → EReal) (s : (⟨2, ![n, 1]⟩ : Shape).Idx → EReal)
    (h : (⟨2, ![n, 128]⟩ : Shape).Idx → EReal) (Wl Wr : (⟨2, ![128, 128]⟩ : Shape).Idx → EReal)
    (b : (⟨1, ![128]⟩ : Shape).Idx → EReal) (r : Fin n) (j : Fin 128) : EReal :=
  max (((∑ k : Fin 128, (A (ix2 r k) * s (ix2 r (0 : Fin 1))) * Wl (ix2 k j))
      + ∑ k : Fin 128, h (ix2 r k) * Wr (ix2 k j)) + b (ix1 j)) zeroWord

/-- One layer as a whole array. -/
def layer {n : Nat} (A : (⟨2, ![n, 128]⟩ : Shape).Idx → EReal) (s : (⟨2, ![n, 1]⟩ : Shape).Idx → EReal)
    (h : (⟨2, ![n, 128]⟩ : Shape).Idx → EReal) (Wl Wr : (⟨2, ![128, 128]⟩ : Shape).Idx → EReal)
    (b : (⟨1, ![128]⟩ : Shape).Idx → EReal) : (⟨2, ![n, 128]⟩ : Shape).Idx → EReal :=
  fun i => layerAt A s h Wl Wr b (i 0) (i 1)

/-- One head at node `r`: the row of `h` against the single column `w`, plus the bias. -/
def headAt {n : Nat} (h : (⟨2, ![n, 128]⟩ : Shape).Idx → EReal) (w : (⟨2, ![128, 1]⟩ : Shape).Idx → EReal)
    (b : (⟨1, ![1]⟩ : Shape).Idx → EReal) (r : Fin n) : EReal :=
  (∑ k : Fin 128, h (ix2 r k) * w (ix2 k (0 : Fin 1))) + b (ix1 (0 : Fin 1))

/-- One head as a one-column array. -/
def head {n : Nat} (h : (⟨2, ![n, 128]⟩ : Shape).Idx → EReal) (w : (⟨2, ![128, 1]⟩ : Shape).Idx → EReal)
    (b : (⟨1, ![1]⟩ : Shape).Idx → EReal) : (⟨2, ![n, 1]⟩ : Shape).Idx → EReal :=
  fun i => headAt h w b (i 0)

theorem layer_apply {n : Nat} (A : (⟨2, ![n, 128]⟩ : Shape).Idx → EReal) (s : (⟨2, ![n, 1]⟩ : Shape).Idx → EReal)
    (h : (⟨2, ![n, 128]⟩ : Shape).Idx → EReal) (Wl Wr : (⟨2, ![128, 128]⟩ : Shape).Idx → EReal)
    (b : (⟨1, ![128]⟩ : Shape).Idx → EReal) (r : Fin n) (j : Fin 128) :
    layer A s h Wl Wr b (ix2 r j) = layerAt A s h Wl Wr b r j := rfl

theorem head_apply {n : Nat} (h : (⟨2, ![n, 128]⟩ : Shape).Idx → EReal) (w : (⟨2, ![128, 1]⟩ : Shape).Idx → EReal)
    (b : (⟨1, ![1]⟩ : Shape).Idx → EReal) (r : Fin n) (q : Fin 1) :
    head h w b (ix2 r q) = headAt h w b r := rfl

/-- A layer's entry `(r, j)` reads only row `r` of the messages, of the scale and of the features: two sets of operands that
    agree there (one of them, say, a block of rows of the other) give the same entry. -/
theorem layerAt_congr {n n' : Nat}
    {A : (⟨2, ![n, 128]⟩ : Shape).Idx → EReal} {s : (⟨2, ![n, 1]⟩ : Shape).Idx → EReal}
    {h : (⟨2, ![n, 128]⟩ : Shape).Idx → EReal} {Wl Wr : (⟨2, ![128, 128]⟩ : Shape).Idx → EReal}
    {b : (⟨1, ![128]⟩ : Shape).Idx → EReal}
    {A' : (⟨2, ![n', 128]⟩ : Shape).Idx → EReal} {s' : (⟨2, ![n', 1]⟩ : Shape).Idx → EReal}
    {h' : (⟨2, ![n', 128]⟩ : Shape).Idx → EReal} {Wl' Wr' : (⟨2, ![128, 128]⟩ : Shape).Idx → EReal}
    {b' : (⟨1, ![128]⟩ : Shape).Idx → EReal} (r : Fin n) (r' : Fin n') (j : Fin 128)
    (hA : ∀ k : Fin 128, A' (ix2 r' k) = A (ix2 r k)) (hs : s' (ix2 r' (0 : Fin 1)) = s (ix2 r (0 : Fin 1)))
    (hh : ∀ k : Fin 128, h' (ix2 r' k) = h (ix2 r k)) (hWl : ∀ k : Fin 128, Wl' (ix2 k j) = Wl (ix2 k j))
    (hWr : ∀ k : Fin 128, Wr' (ix2 k j) = Wr (ix2 k j)) (hb : b' (ix1 j) = b (ix1 j)) :
    layerAt A' s' h' Wl' Wr' b' r' j = layerAt A s h Wl Wr b r j := by
  unfold layerAt
  rw [hs, hb]
  congr 3
  · exact Finset.sum_congr rfl fun k _ => by rw [hA k, hWl k]
  · exact Finset.sum_congr rfl fun k _ => by rw [hh k, hWr k]

/-- A head's entry at node `r` reads only row `r` of the features. -/
theorem headAt_congr {n n' : Nat} {h : (⟨2, ![n, 128]⟩ : Shape).Idx → EReal} {w : (⟨2, ![128, 1]⟩ : Shape).Idx → EReal}
    {b : (⟨1, ![1]⟩ : Shape).Idx → EReal} {h' : (⟨2, ![n', 128]⟩ : Shape).Idx → EReal}
    {w' : (⟨2, ![128, 1]⟩ : Shape).Idx → EReal} {b' : (⟨1, ![1]⟩ : Shape).Idx → EReal} (r : Fin n) (r' : Fin n')
    (hh : ∀ k : Fin 128, h' (ix2 r' k) = h (ix2 r k)) (hw : ∀ k : Fin 128, w' (ix2 k (0 : Fin 1)) = w (ix2 k (0 : Fin 1)))
    (hb : b' (ix1 (0 : Fin 1)) = b (ix1 (0 : Fin 1))) :
    headAt h' w' b' r' = headAt h w b r := by
  unfold headAt
  rw [hb]
  congr 1
  exact Finset.sum_congr rfl fun k _ => by rw [hh k, hw k]

/-- The larger of anything and one is not zero. -/
theorem max_one_ne_zero (c : EReal) : max c oneWord ≠ 0 := by
  rw [show oneWord = 1 from Ideal.ofBits_one_f32]
  exact ne_of_gt (lt_of_lt_of_le zero_lt_one (le_max_right c 1))

/-- Scaling by the reciprocal of a divisor that is not zero is dividing by it, on every extended real. -/
theorem mul_recip (a y : EReal) (hy : y ≠ 0) : a * Ideal.div oneWord y = Ideal.div a y := by
  rw [show oneWord = 1 from Ideal.ofBits_one_f32]
  unfold Ideal.div
  rw [if_neg hy, if_neg hy, one_mul]

/-- The scale a node's messages are multiplied by is the division by its degree (at least one). -/
theorem mul_recip_max (a c : EReal) : a * Ideal.div oneWord (max c oneWord) = Ideal.div a (max c oneWord) :=
  mul_recip a _ (max_one_ne_zero c)

end Cert.Sage

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibRowVector.lean ====
/-
  A vector laid along every row of a matrix, read at an index.

  A length-`n` vector is cast to a single row `[1, n]` and that row is repeated down `m` rows. Entry `(p, q)` of the
  result is entry `q` of the vector, whatever `p` is: the broadcast reads its one-row operand at row 0 and the same
  column, and the cast keeps the row-major position `0·n + q = q`.
-/
import Idealize.ShloMosaic.Lib.Pipeline.Value
import Idealize.ShloMosaic.Lib.ValueIdx

noncomputable section

namespace Cert.RowVector

open Idealize.ShloMosaic Idealize.ShloMosaic.ValueIdx

variable {α : Type} {m n : Nat}

/-- A vector cast to one row and repeated down `m` rows, at `(p, q)`, is the vector at `q`. -/
theorem rowBroadcast_apply (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have hrow := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have hcast := shapeCast_apply x h1 (ix2 (0 : Fin 1) q) (ix1 q) (by
    rw [Shape.rowMajor_val_two, Shape.rowMajor_val_one]; show q.val = 0 * n + q.val; omega)
  exact hrow.trans hcast

end Cert.RowVector

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.Payload.lean ====
/-
  The kernels' arithmetic, read at an index.

  Each block of 5000 nodes is computed by one matrix expression: the summed messages of the block, each row scaled
  by its node's reciprocal degree, times `Wl`; plus the block's own rows times `Wr`; plus the bias laid along every
  row; then the positive part.  At the extended reals a change of float format is the identity and a product into a
  zero accumulator is the plain contraction, so entry `(p, q)` of that expression is the layer's entry for row `p`.
  The two heads multiply the second layer's block by one column each and add a one-entry bias.
-/
import proofs.«174420_j55602646614393_2_alg».proof.Proof.Gen.KernelIdeal.Skeleton
import proofs.«174420_j55602646614393_2_alg».proof.Proof.Spec
import proofs.«174420_j55602646614393_2_alg».proof.Proof.LibPlainProduct
import proofs.«174420_j55602646614393_2_alg».proof.Proof.LibRowVector
import proofs.«174420_j55602646614393_2_alg».proof.Proof.LibRepeat
import Idealize.ShloMosaic.Lib.Pipeline.Value
import Idealize.ShloMosaic.Lib.ValueIdx

noncomputable section

namespace Cert.KernelIdeal.Pay

open Idealize.ShloMosaic Idealize.ShloMosaic.ValueIdx Cert.KernelIdeal Cert.KernelIdeal.Gen Cert.Sage

/-- The kernels' 5000×128 by 128×128 product is the plain one. -/
theorem dot_wide : dot_S5000x128_S128x128_S5000x128_1_0_0_1_n_n = DotDims.plain 5000 128 128 := rfl

/-- The heads' 5000×128 by 128×1 product is the plain one. -/
theorem dot_col : dot_S5000x128_S128x1_S5000x1_1_0_0_1_n_n = DotDims.plain 5000 128 1 := rfl

/-- The scaled messages through a weight matrix, at `(p, q)`: `Σₖ (A p k · s p) · W k q`. -/
theorem scaled_product (A : S5000x128.Idx → EReal) (s : S5000x1.Idx → EReal) (W : S128x128.Idx → EReal)
    (hA : S5000x128.ShapeCasts S5000x128) (hs : S5000x1.ShapeCasts S5000x1) (hb : S5000x1.Broadcasts S5000x128)
    (ht : FTy.bf16.bits < FTy.f32.bits) (p : Fin 5000) (q : Fin 128) :
    matmul (F := Ideal) dot_S5000x128_S128x128_S5000x128_1_0_0_1_n_n none
        (truncf .bf16 (mulf (φ := .f32) (shapeCast S5000x128 A hA) (broadcastTo S5000x128 (shapeCast S5000x1 s hs) hb)) ht)
        (truncf .bf16 (φ := .f32) W ht) (constant S5000x128 .f32 0x00000000#32) (ix2 p q)
      = ∑ k : Fin 128, (A (ix2 p k) * s (ix2 p (0 : Fin 1))) * W (ix2 k q) := by
  refine (Cert.PlainProduct.matmul_plain_apply _ dot_wide none _ _ p q).trans ?_
  refine Finset.sum_congr rfl fun k _ => ?_
  show (shapeCast S5000x128 A hA (ix2 p k) * broadcastTo S5000x128 (shapeCast S5000x1 s hs) hb (ix2 p k)) * W (ix2 k q) = _
  rw [shapeCast_self, shapeCast_self, Cert.Lib.Repeat.colRepeat_apply]

/-- A block's own rows (kept in the wide format) through a weight matrix, at `(p, q)`. -/
theorem own_product (H : S5000x128.Idx → EReal) (W : S128x128.Idx → EReal) (ht : FTy.bf16.bits < FTy.f32.bits)
    (p : Fin 5000) (q : Fin 128) :
    matmul (F := Ideal) dot_S5000x128_S128x128_S5000x128_1_0_0_1_n_n none
        (truncf .bf16 (φ := .f32) H ht) (truncf .bf16 (φ := .f32) W ht) (constant S5000x128 .f32 0x00000000#32) (ix2 p q)
      = ∑ k : Fin 128, H (ix2 p k) * W (ix2 k q) :=
  Cert.PlainProduct.matmul_plain_apply _ dot_wide none _ _ p q

/-- A block's own rows (already in the narrow format) through a weight matrix, at `(p, q)`. -/
theorem own_product_narrow (H : S5000x128.Idx → EReal) (W : S128x128.Idx → EReal) (hH : S5000x128.ShapeCasts S5000x128)
    (ht : FTy.bf16.bits < FTy.f32.bits) (p : Fin 5000) (q : Fin 128) :
    matmul (F := Ideal) dot_S5000x128_S128x128_S5000x128_1_0_0_1_n_n none
        (φ₁ := .bf16) (shapeCast S5000x128 H hH) (truncf .bf16 (φ := .f32) W ht) (constant S5000x128 .f32 0x00000000#32) (ix2 p q)
      = ∑ k : Fin 128, H (ix2 p k) * W (ix2 k q) := by
  rw [shapeCast_self]
  exact Cert.PlainProduct.matmul_plain_apply _ dot_wide none _ _ p q

/-- The bias laid along every row, at `(p, q)`. -/
theorem bias_row (b : S128.Idx → EReal) (h1 : S128.ShapeCasts S1x128) (hb : S1x128.Broadcasts S5000x128)
    (p : Fin 5000) (q : Fin 128) :
    broadcastTo S5000x128 (shapeCast S1x128 b h1) hb (ix2 p q) = b (ix1 q) :=
  Cert.RowVector.rowBroadcast_apply b h1 hb p q

/-- THE FIRST LAYER'S BLOCK at `(p, q)` is the layer's entry for row `p` of the block's operands. -/
theorem k0_pay1_apply (v0 : Vec Ideal S5000x128 .f32) (v2 : Vec Ideal S5000x1 .f32) (v7 : Vec Ideal S5000x128 .f32)
    (v9 v11 : Vec Ideal S128x128 .f32) (v16 : Vec Ideal S128 .f32) (p : Fin 5000) (q : Fin 128) :
    k0_pay1 (F := Ideal) v0 v2 v7 v9 v11 v16 (ix2 p q) = layerAt v0 v2 v7 v9 v11 v16 p q := by
  unfold k0_pay1 layerAt
  exact congrArg₂ max
    (congrArg₂ (· + ·)
      (congrArg₂ (· + ·) (scaled_product v0 v2 v9 _ _ _ _ p q) (own_product v7 v11 _ p q))
      (bias_row v16 _ _ p q))
    rfl

/-- THE SECOND LAYER'S BLOCK at `(p, q)`: the same expression, the block's own rows arriving in the narrow format. -/
theorem k1_pay2_apply (v0 : Vec Ideal S5000x128 .f32) (v2 : Vec Ideal S5000x1 .f32) (v7 : Vec Ideal S5000x128 .bf16)
    (v9 v11 : Vec Ideal S128x128 .f32) (v16 : Vec Ideal S128 .f32) (p : Fin 5000) (q : Fin 128) :
    k1_pay2 (F := Ideal) v0 v2 v7 v9 v11 v16 (ix2 p q) = layerAt v0 v2 v7 v9 v11 v16 p q := by
  unfold k1_pay2 layerAt
  exact congrArg₂ max
    (congrArg₂ (· + ·)
      (congrArg₂ (· + ·) (scaled_product v0 v2 v9 _ _ _ _ p q) (own_product_narrow v7 v11 _ _ p q))
      (bias_row v16 _ _ p q))
    rfl

/-- A block of hidden rows against one column, plus a one-entry bias, at row `p`. -/
theorem head_block (H : S5000x128.Idx → EReal) (w : S128x1.Idx → EReal) (b : S1.Idx → EReal)
    (ht : FTy.bf16.bits < FTy.f32.bits) (h1 : S1.ShapeCasts S1x1) (hb : S1x1.Broadcasts S5000x1) (p : Fin 5000) :
    addf (F := Ideal) (matmul dot_S5000x128_S128x1_S5000x1_1_0_0_1_n_n none (φ₁ := .bf16) H (truncf .bf16 (φ := .f32) w ht)
        (constant S5000x1 .f32 0x00000000#32)) (broadcastTo S5000x1 (shapeCast S1x1 b h1) hb) (ix2 p (0 : Fin 1))
      = headAt H w b p := by
  unfold headAt
  exact congrArg₂ (· + ·) (Cert.PlainProduct.matmul_plain_apply _ dot_col none _ _ p (0 : Fin 1))
    (Cert.RowVector.rowBroadcast_apply b h1 hb p (0 : Fin 1))

/-- THE FIRST HEAD'S BLOCK at row `p`. -/
theorem k1_pay3_apply (v0 : Vec Ideal S5000x128 .f32) (v2 : Vec Ideal S5000x1 .f32) (v7 : Vec Ideal S5000x128 .bf16)
    (v9 v11 : Vec Ideal S128x128 .f32) (v16 : Vec Ideal S128 .f32) (v23 : Vec Ideal S128x1 .f32) (v28 : Vec Ideal S1 .f32)
    (p : Fin 5000) :
    k1_pay3 (F := Ideal) v0 v2 v7 v9 v11 v16 v23 v28 (ix2 p (0 : Fin 1))
      = headAt (k1_pay2 (F := Ideal) v0 v2 v7 v9 v11 v16) v23 v28 p := by
  unfold k1_pay3
  exact head_block (k1_pay2 (F := Ideal) v0 v2 v7 v9 v11 v16) v23 v28 _ _ _ p

/-- THE SECOND HEAD'S BLOCK, before the logistic, at row `p`. -/
theorem k1_pay4_apply (v0 : Vec Ideal S5000x128 .f32) (v2 : Vec Ideal S5000x1 .f32) (v7 : Vec Ideal S5000x128 .bf16)
    (v9 v11 : Vec Ideal S128x128 .f32) (v16 : Vec Ideal S128 .f32) (v25 : Vec Ideal S128x1 .f32) (v33 : Vec Ideal S1 .f32)
    (p : Fin 5000) :
    k1_pay4 (F := Ideal) v0 v2 v7 v9 v11 v16 v25 v33 (ix2 p (0 : Fin 1))
      = headAt (k1_pay2 (F := Ideal) v0 v2 v7 v9 v11 v16) v25 v33 p := by
  unfold k1_pay4
  exact head_block (k1_pay2 (F := Ideal) v0 v2 v7 v9 v11 v16) v25 v33 _ _ _ p

end Cert.KernelIdeal.Pay

end
-- ==== Proof.Region0.lean ====
/-
  The first layer's output array after its pallas_call.

  The call walks 20 blocks of 5000 nodes.  At block `t` it reads rows `5000·t … 5000·t + 4999` of the summed
  messages, of the reciprocal degrees and of the features, the whole of both weight matrices and of the bias, and
  writes the same rows of the output.  A layer's entry `(r, j)` reads only row `r` of the row-indexed operands, so
  what block `t` writes is block `t` of the layer applied to the WHOLE arrays; the 20 blocks tile the 100000 rows, so
  the output array ends as that whole-array function of the arrays the call found — whatever those arrays are.
-/
import proofs.«174420_j55602646614393_2_alg».proof.Proof.Gen.KernelIdeal.Frame
import proofs.«174420_j55602646614393_2_alg».proof.Proof.Payload
import Idealize.ShloMosaic.Lib.Pipeline.Value

set_option maxRecDepth 16384

noncomputable section

namespace Cert.KernelIdeal.Reg0

open Idealize.ShloMosaic Idealize.ShloMosaic.ValueIdx Idealize.ShloMosaic.TcCoe Idealize.SL.Sem
open Cert.KernelIdeal Cert.KernelIdeal.Gen Cert.KernelIdeal.Pay Cert.Sage
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The output array, as one function of the arrays the call finds. -/
abbrev hidden (c : Dev nD) : S100000x128.Idx → EReal :=
  layer (n := 100000) (V c main_v24) (V c main_v12) (V c main_arg0) (V c main_arg2) (V c main_arg3) (V c main_arg4)

/-- The printed index maps over the grid: the row-indexed windows sit at block row `t`, the weights and the bias at
    block zero. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row `p` of block `t` is row `5000·t + p` of the array. -/
def rowOf (t : Fin cfg0.N) (p : Fin 5000) : Fin 100000 :=
  ⟨t.val * 5000 + p.val, by have := t.isLt; have := p.isLt; have : cfg0.N = 20 := N_0; omega⟩

/-- WHAT BLOCK `t` WRITES BACK is block `t` of the layer of the whole arrays. -/
theorem flushed_eq (c : Dev nD) (t : Fin cfg0.N) :
    (dat0 (F := Ideal) V c).flushed 6 t = ((cfg0.win 6).blk t).view.read (Elt Ideal) (hidden V c) := by
  show (cfg0.win 6).cut (grid0.coords t) ((dat0 (F := Ideal) V c).after 6 t) = _
  rw [after0_6]
  unfold out0_6
  rw [View.canon_unit_zero zeros2]
  simp only [View.ld_unit_zero (S := S5000x128) zeros2, View.ld_unit_zero (S := S5000x1) zeros2,
    View.ld_unit_zero (S := S128x128) zeros2, View.ld_unit_zero (S := S128) zeros1]
  obtain ⟨e00, e01, e10, e11, e20, e21, e30, e31, e40, e41, e50, e60, e61⟩ := index_facts t
  funext j
  obtain ⟨p, q, rfl⟩ : ∃ (p : Fin 5000) (q : Fin 128), j = ix2 p q := ⟨j 0, j 1, eq_ix2 j⟩
  refine (k0_pay1_apply (iblk0 V c 0 t) (iblk0 V c 1 t) (iblk0 V c 2 t) (iblk0 V c 3 t) (iblk0 V c 4 t) (iblk0 V c 5 t) p q).trans ?_
  have hout : ((cfg0.win 6).blk t).view.emb (ix2 p q) = ix2 (rowOf t p) q := by
    funext a; apply Fin.ext
    match a with
    | ⟨0, _⟩ => show win0_6.index t (0 : Fin 2) * 5000 + 1 * p.val = t.val * 5000 + p.val; omega
    | ⟨1, _⟩ => show win0_6.index t (1 : Fin 2) * 128 + 1 * q.val = q.val; omega
  show _ = hidden V c (((cfg0.win 6).blk t).view.emb (ix2 p q))
  rw [hout]
  show _ = layerAt (V c main_v24) (V c main_v12) (V c main_arg0) (V c main_arg2) (V c main_arg3) (V c main_arg4) (rowOf t p) q
  refine layerAt_congr (rowOf t p) p q (fun k => ?_) ?_ (fun k => ?_) (fun k => ?_) (fun k => ?_) ?_
  · show V c main_v24 (((cfg0.win 0).blk t).view.emb (ix2 p k)) = V c main_v24 (ix2 (rowOf t p) k)
    refine congrArg (V c main_v24) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_v12 (((cfg0.win 1).blk t).view.emb (ix2 p (0 : Fin 1))) = V c main_v12 (ix2 (rowOf t p) (0 : Fin 1))
    refine congrArg (V c main_v12) (funext fun a => Fin.ext ?_)
    match a with
    | ⟨0, _⟩ => show win0_1.index t (0 : Fin 2) * 5000 + 1 * p.val = t.val * 5000 + p.val; omega
    | ⟨1, _⟩ => show win0_1.index t (1 : Fin 2) * 1 + 1 * 0 = 0; omega
  · show V c main_arg0 (((cfg0.win 2).blk t).view.emb (ix2 p k)) = V c main_arg0 (ix2 (rowOf t p) k)
    refine congrArg (V c main_arg0) (funext fun a => Fin.ext ?_)
    match a with
    | ⟨0, _⟩ => show win0_2.index t (0 : Fin 2) * 5000 + 1 * p.val = t.val * 5000 + p.val; omega
    | ⟨1, _⟩ => show win0_2.index t (1 : Fin 2) * 128 + 1 * k.val = k.val; omega
  · show V c main_arg2 (((cfg0.win 3).blk t).view.emb (ix2 k q)) = V c main_arg2 (ix2 k q)
    refine congrArg (V c main_arg2) (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · show V c main_arg3 (((cfg0.win 4).blk t).view.emb (ix2 k q)) = V c main_arg3 (ix2 k q)
    refine congrArg (V c main_arg3) (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega
  · show V c main_arg4 (((cfg0.win 5).blk t).view.emb (ix1 q)) = V c main_arg4 (ix1 q)
    refine congrArg (V c main_arg4) (funext fun a => Fin.ext ?_)
    match a with
    | ⟨0, _⟩ => show win0_5.index t (0 : Fin 1) * 128 + 1 * q.val = q.val; omega

/-- An index of the array is in block `t` iff each coordinate is in the block's range on its axis. -/
theorem mem_block (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v25).slice (win0_6.rect t)).set ↔ _
  rw [View.set_slice_whole, Rect.mem_set_unit]
  exact Iff.rfl

/-- Every row is in some block: row `r` in block `r / 5000`. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨_, _, _, _, _, _, _, _, _, _, _, e60, e61⟩ := index_facts t
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; rw [e60]; show (i 0).val / 5000 * 5000 ≤ (i 0).val ∧ (i 0).val < (i 0).val / 5000 * 5000 + 5000; omega
  | ⟨1, _⟩ => show win0_6.index t (1 : Fin 2) * 128 ≤ (i 1).val ∧ (i 1).val < win0_6.index t (1 : Fin 2) * 128 + 128; omega

/-- THE OUTPUT ARRAY after the call: the layer of the arrays the call found. -/
theorem final (c : Dev nD) : (dat0 (F := Ideal) V c).arrAt 6 cfg0.N = hidden V c :=
  (dat0 (F := Ideal) V c).arrAt_eq_of_cover 6 (hidden V c) (fun t _ => flushed_eq V c t) (covered)

end Cert.KernelIdeal.Reg0

end
-- ==== Proof.Region1.lean ====
/-
  The two output arrays after the second pallas_call.

  The call walks the same 20 blocks of 5000 nodes.  At block `t` it forms the second layer's 5000 hidden rows from
  the block's rows of the second-layer messages, of the reciprocal degrees and of the first layer's output, and sends
  them through two heads, each one column and a one-entry bias; the second head's value goes through the logistic
  function.  The hidden rows never leave the kernel, but they are rows of the layer applied to the whole arrays, and
  a head's entry at node `r` reads only row `r`: so what block `t` writes is block `t` of a whole-array function, and
  the 20 blocks tile the 100000 rows of each output.
-/
import proofs.«174420_j55602646614393_2_alg».proof.Proof.Gen.KernelIdeal.Frame
import proofs.«174420_j55602646614393_2_alg».proof.Proof.Payload
import Idealize.ShloMosaic.Lib.Pipeline.Value

set_option maxRecDepth 16384

noncomputable section

namespace Cert.KernelIdeal.Reg1

open Idealize.ShloMosaic Idealize.ShloMosaic.ValueIdx Idealize.ShloMosaic.TcCoe Idealize.SL.Sem
open Cert.KernelIdeal Cert.KernelIdeal.Gen Cert.KernelIdeal.Pay Cert.Sage
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The second layer's hidden rows, as one function of the arrays the call finds. -/
abbrev hidden (c : Dev nD) : S100000x128.Idx → EReal :=
  layer (n := 100000) (V c main_v36) (V c main_v12) (V c main_v25) (V c main_arg5) (V c main_arg6) (V c main_arg7)

/-- The first head's output array. -/
abbrev preds (c : Dev nD) : S100000x1.Idx → EReal :=
  head (n := 100000) (hidden V c) (V c main_arg8) (V c main_arg9)

/-- The second head's output array: the logistic function of its affine value. -/
abbrev diffs (c : Dev nD) : S100000x1.Idx → EReal :=
  fun i => Ideal.logistic (head (n := 100000) (hidden V c) (V c main_arg10) (V c main_arg11) i)

/-- The printed index maps over the grid: the row-indexed windows sit at block row `t`, every other window at block
    zero. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 1) = 0
    ∧ win1_10.index t (0 : Fin 2) = t.val ∧ win1_10.index t (1 : Fin 2) = 0
    ∧ win1_11.index t (0 : Fin 2) = t.val ∧ win1_11.index t (1 : Fin 2) = 0 :=
  (by decide +kernel : ∀ t : Fin grid1.N, _)

/-- Row `p` of block `t` is row `5000·t + p` of the array. -/
def rowOf (t : Fin cfg1.N) (p : Fin 5000) : Fin 100000 :=
  ⟨t.val * 5000 + p.val, by have := t.isLt; have := p.isLt; have : cfg1.N = 20 := N_1; omega⟩

/-- THE HIDDEN BLOCK: entry `(p, k)` of block `t`'s hidden rows is entry `(5000·t + p, k)` of the layer of the whole arrays. -/
theorem hidden_block (c : Dev nD) (t : Fin cfg1.N) (p : Fin 5000) (k : Fin 128) :
    k1_pay2 (F := Ideal) (iblk1 V c 0 t) (iblk1 V c 1 t) (iblk1 V c 2 t) (iblk1 V c 3 t) (iblk1 V c 4 t) (iblk1 V c 5 t) (ix2 p k)
      = hidden V c (ix2 (rowOf t p) k) := by
  obtain ⟨e00, e01, e10, e11, e20, e21, e30, e31, e40, e41, e50, e60, e61, e70, e80, e81, e90, ea0, ea1, eb0, eb1⟩ := index_facts t
  refine (k1_pay2_apply (iblk1 V c 0 t) (iblk1 V c 1 t) (iblk1 V c 2 t) (iblk1 V c 3 t) (iblk1 V c 4 t) (iblk1 V c 5 t) p k).trans ?_
  show _ = layerAt (V c main_v36) (V c main_v12) (V c main_v25) (V c main_arg5) (V c main_arg6) (V c main_arg7) (rowOf t p) k
  refine layerAt_congr (rowOf t p) p k (fun l => ?_) ?_ (fun l => ?_) (fun l => ?_) (fun l => ?_) ?_
  · show V c main_v36 (((cfg1.win 0).blk t).view.emb (ix2 p l)) = V c main_v36 (ix2 (rowOf t p) l)
    refine congrArg (V c main_v36) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * l.val = l.val; omega
  · show V c main_v12 (((cfg1.win 1).blk t).view.emb (ix2 p (0 : Fin 1))) = V c main_v12 (ix2 (rowOf t p) (0 : Fin 1))
    refine congrArg (V c main_v12) (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · show V c main_v25 (((cfg1.win 2).blk t).view.emb (ix2 p l)) = V c main_v25 (ix2 (rowOf t p) l)
    refine congrArg (V c main_v25) (funext fun a => Fin.ext ?_)
    match a with
    | ⟨0, _⟩ => show win1_2.index t (0 : Fin 2) * 5000 + 1 * p.val = t.val * 5000 + p.val; omega
    | ⟨1, _⟩ => show win1_2.index t (1 : Fin 2) * 128 + 1 * l.val = l.val; omega
  · show V c main_arg5 (((cfg1.win 3).blk t).view.emb (ix2 l k)) = V c main_arg5 (ix2 l k)
    refine congrArg (V c main_arg5) (funext fun a => Fin.ext ?_)
    match a with
    | ⟨0, _⟩ => show win1_3.index t (0 : Fin 2) * 128 + 1 * l.val = l.val; omega
    | ⟨1, _⟩ => show win1_3.index t (1 : Fin 2) * 128 + 1 * k.val = k.val; omega
  · show V c main_arg6 (((cfg1.win 4).blk t).view.emb (ix2 l k)) = V c main_arg6 (ix2 l k)
    refine congrArg (V c main_arg6) (funext fun a => Fin.ext ?_)
    match a with
    | ⟨0, _⟩ => show win1_4.index t (0 : Fin 2) * 128 + 1 * l.val = l.val; omega
    | ⟨1, _⟩ => show win1_4.index t (1 : Fin 2) * 128 + 1 * k.val = k.val; omega
  · show V c main_arg7 (((cfg1.win 5).blk t).view.emb (ix1 k)) = V c main_arg7 (ix1 k)
    refine congrArg (V c main_arg7) (funext fun a => Fin.ext ?_)
    match a with
    | ⟨0, _⟩ => show win1_5.index t (0 : Fin 1) * 128 + 1 * k.val = k.val; omega

/-- A head over block `t`'s hidden rows, at row `p`, is the head over the whole hidden array at row `5000·t + p`, when the
    head's column and bias are read through windows that sit at block zero. -/
theorem head_block_eq (c : Dev nD) (t : Fin cfg1.N) (p : Fin 5000)
    (w : S128x1.Idx → EReal) (b : S1.Idx → EReal) (W : S128x1.Idx → EReal) (B : S1.Idx → EReal)
    (hw : ∀ l : Fin 128, w (ix2 l (0 : Fin 1)) = W (ix2 l (0 : Fin 1))) (hb : b (ix1 (0 : Fin 1)) = B (ix1 (0 : Fin 1))) :
    headAt (k1_pay2 (F := Ideal) (iblk1 V c 0 t) (iblk1 V c 1 t) (iblk1 V c 2 t) (iblk1 V c 3 t) (iblk1 V c 4 t) (iblk1 V c 5 t)) w b p
      = headAt (hidden V c) W B (rowOf t p) :=
  headAt_congr (rowOf t p) p (fun l => hidden_block V c t p l) hw hb

/-- Where row `p` of an output block lands. -/
theorem out_emb10 (t : Fin cfg1.N) (p : Fin 5000) :
    ((cfg1.win 10).blk t).view.emb (ix2 p (0 : Fin 1)) = ix2 (rowOf t p) (0 : Fin 1) := by
  obtain ⟨e00, e01, e10, e11, e20, e21, e30, e31, e40, e41, e50, e60, e61, e70, e80, e81, e90, ea0, ea1, eb0, eb1⟩ := index_facts t
  funext a; apply Fin.ext
  match a with
  | ⟨0, _⟩ => show win1_10.index t (0 : Fin 2) * 5000 + 1 * p.val = t.val * 5000 + p.val; omega
  | ⟨1, _⟩ => show win1_10.index t (1 : Fin 2) * 1 + 1 * 0 = 0; omega

theorem out_emb11 (t : Fin cfg1.N) (p : Fin 5000) :
    ((cfg1.win 11).blk t).view.emb (ix2 p (0 : Fin 1)) = ix2 (rowOf t p) (0 : Fin 1) := by
  obtain ⟨e00, e01, e10, e11, e20, e21, e30, e31, e40, e41, e50, e60, e61, e70, e80, e81, e90, ea0, ea1, eb0, eb1⟩ := index_facts t
  funext a; apply Fin.ext
  match a with
  | ⟨0, _⟩ => show win1_11.index t (0 : Fin 2) * 5000 + 1 * p.val = t.val * 5000 + p.val; omega
  | ⟨1, _⟩ => show win1_11.index t (1 : Fin 2) * 1 + 1 * 0 = 0; omega

/-- The first head's column and bias, read through their windows, are the arrays themselves. -/
theorem col6 (c : Dev nD) (t : Fin cfg1.N) (l : Fin 128) : iblk1 V c 6 t (ix2 l (0 : Fin 1)) = V c main_arg8 (ix2 l (0 : Fin 1)) := by
  obtain ⟨e00, e01, e10, e11, e20, e21, e30, e31, e40, e41, e50, e60, e61, e70, e80, e81, e90, ea0, ea1, eb0, eb1⟩ := index_facts t
  show V c main_arg8 (((cfg1.win 6).blk t).view.emb (ix2 l (0 : Fin 1))) = _
  refine congrArg (V c main_arg8) (funext fun a => Fin.ext ?_)
  match a with
  | ⟨0, _⟩ => show win1_6.index t (0 : Fin 2) * 128 + 1 * l.val = l.val; omega
  | ⟨1, _⟩ => show win1_6.index t (1 : Fin 2) * 1 + 1 * 0 = 0; omega

theorem bias7 (c : Dev nD) (t : Fin cfg1.N) : iblk1 V c 7 t (ix1 (0 : Fin 1)) = V c main_arg9 (ix1 (0 : Fin 1)) := by
  obtain ⟨e00, e01, e10, e11, e20, e21, e30, e31, e40, e41, e50, e60, e61, e70, e80, e81, e90, ea0, ea1, eb0, eb1⟩ := index_facts t
  show V c main_arg9 (((cfg1.win 7).blk t).view.emb (ix1 (0 : Fin 1))) = _
  refine congrArg (V c main_arg9) (funext fun a => Fin.ext ?_)
  match a with
  | ⟨0, _⟩ => show win1_7.index t (0 : Fin 1) * 1 + 1 * 0 = 0; omega

/-- The second head's column and bias likewise. -/
theorem col8 (c : Dev nD) (t : Fin cfg1.N) (l : Fin 128) : iblk1 V c 8 t (ix2 l (0 : Fin 1)) = V c main_arg10 (ix2 l (0 : Fin 1)) := by
  obtain ⟨e00, e01, e10, e11, e20, e21, e30, e31, e40, e41, e50, e60, e61, e70, e80, e81, e90, ea0, ea1, eb0, eb1⟩ := index_facts t
  show V c main_arg10 (((cfg1.win 8).blk t).view.emb (ix2 l (0 : Fin 1))) = _
  refine congrArg (V c main_arg10) (funext fun a => Fin.ext ?_)
  match a with
  | ⟨0, _⟩ => show win1_8.index t (0 : Fin 2) * 128 + 1 * l.val = l.val; omega
  | ⟨1, _⟩ => show win1_8.index t (1 : Fin 2) * 1 + 1 * 0 = 0; omega

theorem bias9 (c : Dev nD) (t : Fin cfg1.N) : iblk1 V c 9 t (ix1 (0 : Fin 1)) = V c main_arg11 (ix1 (0 : Fin 1)) := by
  obtain ⟨e00, e01, e10, e11, e20, e21, e30, e31, e40, e41, e50, e60, e61, e70, e80, e81, e90, ea0, ea1, eb0, eb1⟩ := index_facts t
  show V c main_arg11 (((cfg1.win 9).blk t).view.emb (ix1 (0 : Fin 1))) = _
  refine congrArg (V c main_arg11) (funext fun a => Fin.ext ?_)
  match a with
  | ⟨0, _⟩ => show win1_9.index t (0 : Fin 1) * 1 + 1 * 0 = 0; omega

/-- An index of a one-column block: its row, and column zero. -/
theorem eq_col (j : S5000x1.Idx) : ∃ p : Fin 5000, j = ix2 p (0 : Fin 1) :=
  ⟨j 0, (eq_ix2 j).trans (congrArg (ix2 (n0 := 5000) (n1 := 1) (j 0)) (Subsingleton.elim (α := Fin 1) (j 1) 0))⟩

/-- WHAT BLOCK `t` WRITES BACK TO THE FIRST OUTPUT is block `t` of the first head of the whole arrays. -/
theorem flushed10_eq (c : Dev nD) (t : Fin cfg1.N) :
    (dat1 (F := Ideal) V c).flushed 10 t = ((cfg1.win 10).blk t).view.read (Elt Ideal) (preds V c) := by
  show (cfg1.win 10).cut (grid1.coords t) ((dat1 (F := Ideal) V c).after 10 t) = _
  rw [after1_10]
  unfold out1_10
  rw [View.canon_unit_zero zeros2]
  simp only [View.ld_unit_zero (S := S5000x128) zeros2, View.ld_unit_zero (S := S5000x1) zeros2,
    View.ld_unit_zero (S := S128x128) zeros2, View.ld_unit_zero (S := S128) zeros1,
    View.ld_unit_zero (S := S128x1) zeros2, View.ld_unit_zero (S := S1) zeros1]
  funext j
  obtain ⟨p, rfl⟩ := eq_col j
  refine (k1_pay3_apply (iblk1 V c 0 t) (iblk1 V c 1 t) (iblk1 V c 2 t) (iblk1 V c 3 t) (iblk1 V c 4 t) (iblk1 V c 5 t)
    (iblk1 V c 6 t) (iblk1 V c 7 t) p).trans ?_
  show _ = preds V c (((cfg1.win 10).blk t).view.emb (ix2 p (0 : Fin 1)))
  rw [out_emb10]
  exact head_block_eq V c t p (iblk1 V c 6 t) (iblk1 V c 7 t) (V c main_arg8) (V c main_arg9) (col6 V c t) (bias7 V c t)

/-- WHAT BLOCK `t` WRITES BACK TO THE SECOND OUTPUT is block `t` of the logistic of the second head of the whole arrays. -/
theorem flushed11_eq (c : Dev nD) (t : Fin cfg1.N) :
    (dat1 (F := Ideal) V c).flushed 11 t = ((cfg1.win 11).blk t).view.read (Elt Ideal) (diffs V c) := by
  show (cfg1.win 11).cut (grid1.coords t) ((dat1 (F := Ideal) V c).after 11 t) = _
  rw [after1_11]
  unfold out1_11
  rw [View.canon_unit_zero zeros2]
  simp only [View.ld_unit_zero (S := S5000x128) zeros2, View.ld_unit_zero (S := S5000x1) zeros2,
    View.ld_unit_zero (S := S128x128) zeros2, View.ld_unit_zero (S := S128) zeros1,
    View.ld_unit_zero (S := S128x1) zeros2, View.ld_unit_zero (S := S1) zeros1]
  funext j
  obtain ⟨p, rfl⟩ := eq_col j
  show Ideal.logistic (k1_pay4 (F := Ideal) (iblk1 V c 0 t) (iblk1 V c 1 t) (iblk1 V c 2 t) (iblk1 V c 3 t) (iblk1 V c 4 t) (iblk1 V c 5 t)
      (iblk1 V c 8 t) (iblk1 V c 9 t) (ix2 p (0 : Fin 1)))
    = diffs V c (((cfg1.win 11).blk t).view.emb (ix2 p (0 : Fin 1)))
  rw [out_emb11]
  refine congrArg Ideal.logistic ?_
  refine (k1_pay4_apply (iblk1 V c 0 t) (iblk1 V c 1 t) (iblk1 V c 2 t) (iblk1 V c 3 t) (iblk1 V c 4 t) (iblk1 V c 5 t)
    (iblk1 V c 8 t) (iblk1 V c 9 t) p).trans ?_
  exact head_block_eq V c t p (iblk1 V c 8 t) (iblk1 V c 9 t) (V c main_arg10) (V c main_arg11) (col8 V c t) (bias9 V c t)

/-- An index of an output array is in block `t` iff each coordinate is in the block's range on its axis. -/
theorem mem_block10 (t : Fin cfg1.N) (i : S100000x1.Idx) :
    i ∈ ((cfg1.win 10).blk t).view.set ↔ ∀ a : Fin 2, win1_10.index t a * S5000x1.size a ≤ (i a).val ∧ (i a).val < win1_10.index t a * S5000x1.size a + S5000x1.size a := by
  show i ∈ ((View.whole main_v37_0).slice (win1_10.rect t)).set ↔ _
  rw [View.set_slice_whole, Rect.mem_set_unit]
  exact Iff.rfl

theorem mem_block11 (t : Fin cfg1.N) (i : S100000x1.Idx) :
    i ∈ ((cfg1.win 11).blk t).view.set ↔ ∀ a : Fin 2, win1_11.index t a * S5000x1.size a ≤ (i a).val ∧ (i a).val < win1_11.index t a * S5000x1.size a + S5000x1.size a := by
  show i ∈ ((View.whole main_v37_1).slice (win1_11.rect t)).set ↔ _
  rw [View.set_slice_whole, Rect.mem_set_unit]
  exact Iff.rfl

/-- Every row of the first output is in some block: row `r` in block `r / 5000`. -/
theorem covered10 (i : S100000x1.Idx) :
    ∃ t : Fin cfg1.N, (cfg1.win 10).flush t = true ∧ i ∈ ((cfg1.win 10).blk t).view.set := by
  have hi0 : (i 0).val < 100000 := (i 0).isLt
  have hi1 : (i 1).val < 1 := (i 1).isLt
  have hN : cfg1.N = 20 := N_1
  let t : Fin cfg1.N := ⟨(i 0).val / 5000, by omega⟩
  obtain ⟨e00, e01, e10, e11, e20, e21, e30, e31, e40, e41, e50, e60, e61, e70, e80, e81, e90, ea0, ea1, eb0, eb1⟩ := index_facts t
  refine ⟨t, flush1_10 t, ?_⟩
  rw [mem_block10]
  intro a
  match a with
  | ⟨0, _⟩ => show win1_10.index t (0 : Fin 2) * 5000 ≤ (i 0).val ∧ (i 0).val < win1_10.index t (0 : Fin 2) * 5000 + 5000; rw [ea0]; show (i 0).val / 5000 * 5000 ≤ (i 0).val ∧ (i 0).val < (i 0).val / 5000 * 5000 + 5000; omega
  | ⟨1, _⟩ => show win1_10.index t (1 : Fin 2) * 1 ≤ (i 1).val ∧ (i 1).val < win1_10.index t (1 : Fin 2) * 1 + 1; omega

/-- Every row of the second output likewise. -/
theorem covered11 (i : S100000x1.Idx) :
    ∃ t : Fin cfg1.N, (cfg1.win 11).flush t = true ∧ i ∈ ((cfg1.win 11).blk t).view.set := by
  have hi0 : (i 0).val < 100000 := (i 0).isLt
  have hi1 : (i 1).val < 1 := (i 1).isLt
  have hN : cfg1.N = 20 := N_1
  let t : Fin cfg1.N := ⟨(i 0).val / 5000, by omega⟩
  obtain ⟨e00, e01, e10, e11, e20, e21, e30, e31, e40, e41, e50, e60, e61, e70, e80, e81, e90, ea0, ea1, eb0, eb1⟩ := index_facts t
  refine ⟨t, flush1_11 t, ?_⟩
  rw [mem_block11]
  intro a
  match a with
  | ⟨0, _⟩ => show win1_11.index t (0 : Fin 2) * 5000 ≤ (i 0).val ∧ (i 0).val < win1_11.index t (0 : Fin 2) * 5000 + 5000; rw [eb0]; show (i 0).val / 5000 * 5000 ≤ (i 0).val ∧ (i 0).val < (i 0).val / 5000 * 5000 + 5000; omega
  | ⟨1, _⟩ => show win1_11.index t (1 : Fin 2) * 1 ≤ (i 1).val ∧ (i 1).val < win1_11.index t (1 : Fin 2) * 1 + 1; omega

/-- THE FIRST OUTPUT ARRAY after the call. -/
theorem final10 (c : Dev nD) : (dat1 (F := Ideal) V c).arrAt 10 cfg1.N = preds V c :=
  (dat1 (F := Ideal) V c).arrAt_eq_of_cover 10 (preds V c) (fun t _ => flushed10_eq V c t) covered10

/-- THE SECOND OUTPUT ARRAY after the call. -/
theorem final11 (c : Dev nD) : (dat1 (F := Ideal) V c).arrAt 11 cfg1.N = diffs V c :=
  (dat1 (F := Ideal) V c).arrAt_eq_of_cover 11 (diffs V c) (fun t _ => flushed11_eq V c t) covered11

end Cert.KernelIdeal.Reg1

end
-- ==== Proof.HostChain.lean ====
/-
  The host operations around the two pallas_calls, read over any contents of the buffers.

  Both layers aggregate in the same way: every edge `e` carries row `src e` of a node array (a negative `src` counted
  from the end, as array indexing does) to node `dst e`, where the rows are summed; and every node's messages are
  later scaled by the reciprocal of the larger of its in-degree and one.  These two chains are named here once, as
  functions of the edge list and the node array, and never opened: the other program applies the same chains.
  A change of float format on the way into and out of the gather is the identity at the extended reals.
-/
import proofs.«174420_j55602646614393_2_alg».proof.Proof.Gen.KernelIdeal.Launch
import Idealize.ShloMosaic.Lib.StableHlo.Run
import Idealize.ShloMosaic.PureOps.Ideal.Laws

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

/-- The edges' source nodes, as printed (row 0 of the edge list). -/
def srcRow (ei : S2x1600000.Idx → BitVec 32) : S1600000.Idx → BitVec 32 :=
  shapeCast S1600000 (extractStridedSlice S1x1600000 ![0, 0] ei slices_S2x1600000_S1x1600000_0_0) shapeCasts_S1x1600000_S1600000

/-- The edges' destination nodes (row 1 of the edge list). -/
def dstRow (ei : S2x1600000.Idx → BitVec 32) : S1600000.Idx → BitVec 32 :=
  shapeCast S1600000 (extractStridedSlice S1x1600000 ![1, 0] ei slices_S2x1600000_S1x1600000_1_0) shapeCasts_S1x1600000_S1600000

/-- The summed messages: row `src e` of `X` (a negative source counted from the end) added into row `dst e`, over all edges. -/
def aggregateOf (s d : S1600000.Idx → BitVec 32) (X : S100000x128.Idx → EReal) : S100000x128.Idx → EReal :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 X
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The in-degrees: one added into node `dst e` for every edge. -/
def degreeOf (d : S1600000.Idx → BitVec 32) : S100000.Idx → EReal :=
  Host.scatterAdd (F := Ideal) (φ := .f32) scatter_S100000_S1600000x1_S1600000_n_0_0_1
    (broadcastInDim S100000 ![] bcast_S_S100000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))

/-- The all-ones vector over the nodes. -/
def onesN : S100000.Idx → EReal :=
  broadcastInDim S100000 ![] bcast_S_S100000 (constant (F := Ideal) S_ .f32 0x3F800000#32)

/-- The scale column: one over the larger of the in-degree and one. -/
def recipOf (d : S1600000.Idx → BitVec 32) : S100000x1.Idx → EReal :=
  broadcastInDim S100000x1 ![0] bcast_S100000_S100000x1_0
    (Host.divf (F := Ideal) (φ := .f32) onesN (maximumf (F := Ideal) (φ := .f32) (degreeOf d) onesN))

/-! ## Before the first call -/

theorem hostOps0_main_v1 (W : Valuation τ sig (Elt Ideal)) :
    StableHlo.after (hostOps0 (F := Ideal)) W (Proc.devRef .tc main_v1) = srcRow (W (Proc.devRef .tc main_arg1)) := by
  after_results_simp
  rfl

theorem hostOps0_main_v3 (W : Valuation τ sig (Elt Ideal)) :
    StableHlo.after (hostOps0 (F := Ideal)) W (Proc.devRef .tc main_v3) = dstRow (W (Proc.devRef .tc main_arg1)) := by
  after_results_simp
  rfl

theorem hostOps0_main_v12 (W : Valuation τ sig (Elt Ideal)) :
    StableHlo.after (hostOps0 (F := Ideal)) W (Proc.devRef .tc main_v12) = recipOf (dstRow (W (Proc.devRef .tc main_arg1))) := by
  after_results_simp
  rfl

theorem hostOps0_main_v24 (W : Valuation τ sig (Elt Ideal)) :
    StableHlo.after (hostOps0 (F := Ideal)) W (Proc.devRef .tc main_v24)
      = aggregateOf (srcRow (W (Proc.devRef .tc main_arg1))) (dstRow (W (Proc.devRef .tc main_arg1))) (W (Proc.devRef .tc main_arg0)) := by
  after_results_simp
  rfl

theorem hostOps0_main_arg0 (W : Valuation τ sig (Elt Ideal)) :
    StableHlo.after (hostOps0 (F := Ideal)) W (Proc.devRef .tc main_arg0) = W (Proc.devRef .tc main_arg0) := by
  after_results_simp

theorem hostOps0_main_arg2 (W : Valuation τ sig (Elt Ideal)) :
    StableHlo.after (hostOps0 (F := Ideal)) W (Proc.devRef .tc main_arg2) = W (Proc.devRef .tc main_arg2) := by
  after_results_simp

theorem hostOps0_main_arg3 (W : Valuation τ sig (Elt Ideal)) :
    StableHlo.after (hostOps0 (F := Ideal)) W (Proc.devRef .tc main_arg3) = W (Proc.devRef .tc main_arg3) := by
  after_results_simp

theorem hostOps0_main_arg4 (W : Valuation τ sig (Elt Ideal)) :
    StableHlo.after (hostOps0 (F := Ideal)) W (Proc.devRef .tc main_arg4) = W (Proc.devRef .tc main_arg4) := by
  after_results_simp

theorem hostOps0_main_arg5 (W : Valuation τ sig (Elt Ideal)) :
    StableHlo.after (hostOps0 (F := Ideal)) W (Proc.devRef .tc main_arg5) = W (Proc.devRef .tc main_arg5) := by
  after_results_simp

theorem hostOps0_main_arg6 (W : Valuation τ sig (Elt Ideal)) :
    StableHlo.after (hostOps0 (F := Ideal)) W (Proc.devRef .tc main_arg6) = W (Proc.devRef .tc main_arg6) := by
  after_results_simp

theorem hostOps0_main_arg7 (W : Valuation τ sig (Elt Ideal)) :
    StableHlo.after (hostOps0 (F := Ideal)) W (Proc.devRef .tc main_arg7) = W (Proc.devRef .tc main_arg7) := by
  after_results_simp

theorem hostOps0_main_arg8 (W : Valuation τ sig (Elt Ideal)) :
    StableHlo.after (hostOps0 (F := Ideal)) W (Proc.devRef .tc main_arg8) = W (Proc.devRef .tc main_arg8) := by
  after_results_simp

theorem hostOps0_main_arg9 (W : Valuation τ sig (Elt Ideal)) :
    StableHlo.after (hostOps0 (F := Ideal)) W (Proc.devRef .tc main_arg9) = W (Proc.devRef .tc main_arg9) := by
  after_results_simp

theorem hostOps0_main_arg10 (W : Valuation τ sig (Elt Ideal)) :
    StableHlo.after (hostOps0 (F := Ideal)) W (Proc.devRef .tc main_arg10) = W (Proc.devRef .tc main_arg10) := by
  after_results_simp

theorem hostOps0_main_arg11 (W : Valuation τ sig (Elt Ideal)) :
    StableHlo.after (hostOps0 (F := Ideal)) W (Proc.devRef .tc main_arg11) = W (Proc.devRef .tc main_arg11) := by
  after_results_simp

/-! ## Between the calls -/

theorem hostOps1_main_v36 (W : Valuation τ sig (Elt Ideal)) :
    StableHlo.after (hostOps1 (F := Ideal)) W (Proc.devRef .tc main_v36)
      = aggregateOf (W (Proc.devRef .tc main_v1)) (W (Proc.devRef .tc main_v3)) (W (Proc.devRef .tc main_v25)) := by
  after_results_simp
  rfl

theorem hostOps1_main_v12 (W : Valuation τ sig (Elt Ideal)) :
    StableHlo.after (hostOps1 (F := Ideal)) W (Proc.devRef .tc main_v12) = W (Proc.devRef .tc main_v12) := by
  after_results_simp

theorem hostOps1_main_v25 (W : Valuation τ sig (Elt Ideal)) :
    StableHlo.after (hostOps1 (F := Ideal)) W (Proc.devRef .tc main_v25) = W (Proc.devRef .tc main_v25) := by
  after_results_simp

theorem hostOps1_main_arg5 (W : Valuation τ sig (Elt Ideal)) :
    StableHlo.after (hostOps1 (F := Ideal)) W (Proc.devRef .tc main_arg5) = W (Proc.devRef .tc main_arg5) := by
  after_results_simp

theorem hostOps1_main_arg6 (W : Valuation τ sig (Elt Ideal)) :
    StableHlo.after (hostOps1 (F := Ideal)) W (Proc.devRef .tc main_arg6) = W (Proc.devRef .tc main_arg6) := by
  after_results_simp

theorem hostOps1_main_arg7 (W : Valuation τ sig (Elt Ideal)) :
    StableHlo.after (hostOps1 (F := Ideal)) W (Proc.devRef .tc main_arg7) = W (Proc.devRef .tc main_arg7) := by
  after_results_simp

theorem hostOps1_main_arg8 (W : Valuation τ sig (Elt Ideal)) :
    StableHlo.after (hostOps1 (F := Ideal)) W (Proc.devRef .tc main_arg8) = W (Proc.devRef .tc main_arg8) := by
  after_results_simp

theorem hostOps1_main_arg9 (W : Valuation τ sig (Elt Ideal)) :
    StableHlo.after (hostOps1 (F := Ideal)) W (Proc.devRef .tc main_arg9) = W (Proc.devRef .tc main_arg9) := by
  after_results_simp

theorem hostOps1_main_arg10 (W : Valuation τ sig (Elt Ideal)) :
    StableHlo.after (hostOps1 (F := Ideal)) W (Proc.devRef .tc main_arg10) = W (Proc.devRef .tc main_arg10) := by
  after_results_simp

theorem hostOps1_main_arg11 (W : Valuation τ sig (Elt Ideal)) :
    StableHlo.after (hostOps1 (F := Ideal)) W (Proc.devRef .tc main_arg11) = W (Proc.devRef .tc main_arg11) := by
  after_results_simp

/-! ## After the second call -/

theorem hostOps2_main_v38 (W : Valuation τ sig (Elt Ideal)) :
    StableHlo.after (hostOps2 (F := Ideal)) W (Proc.devRef .tc main_v38)
      = subf (F := Ideal) (φ := .f32) (W (Proc.devRef .tc main_v37_0)) (W (Proc.devRef .tc main_v37_1)) := by
  after_results_simp

theorem hostOps2_main_v39 (W : Valuation τ sig (Elt Ideal)) :
    StableHlo.after (hostOps2 (F := Ideal)) W (Proc.devRef .tc main_v39)
      = addf (F := Ideal) (φ := .f32) (W (Proc.devRef .tc main_v37_0)) (W (Proc.devRef .tc main_v37_1)) := by
  after_results_simp

end Cert.KernelIdeal.Chain

end
-- ==== Proof.Network.lean ====
/-
  The whole network as functions of the twelve argument arrays.

  `hidden1` is the first layer of the node features; `hidden2` the second layer of `hidden1`; both aggregate along
  the same edge list and share the reciprocal-degree scale.  The first result is the first head minus the logistic of
  the second head, the second result their sum.
-/
import proofs.«174420_j55602646614393_2_alg».proof.Proof.HostChain
import proofs.«174420_j55602646614393_2_alg».proof.Proof.Spec

noncomputable section

namespace Cert.KernelIdeal.Net

open Idealize.ShloMosaic Cert.KernelIdeal Cert.KernelIdeal.Chain Cert.Sage

/-- The first layer's output. -/
def hidden1 (x : S100000x128.Idx → EReal) (ei : S2x1600000.Idx → BitVec 32) (Wl1 Wr1 : S128x128.Idx → EReal)
    (b1 : S128.Idx → EReal) : S100000x128.Idx → EReal :=
  layer (n := 100000) (aggregateOf (srcRow ei) (dstRow ei) x) (recipOf (dstRow ei)) x Wl1 Wr1 b1

/-- The second layer's output, from the first layer's. -/
def hidden2 (h1 : S100000x128.Idx → EReal) (ei : S2x1600000.Idx → BitVec 32) (Wl2 Wr2 : S128x128.Idx → EReal)
    (b2 : S128.Idx → EReal) : S100000x128.Idx → EReal :=
  layer (n := 100000) (aggregateOf (srcRow ei) (dstRow ei) h1) (recipOf (dstRow ei)) h1 Wl2 Wr2 b2

/-- The first head. -/
def predsOf (h2 : S100000x128.Idx → EReal) (Wp : S128x1.Idx → EReal) (bp : S1.Idx → EReal) : S100000x1.Idx → EReal :=
  head (n := 100000) h2 Wp bp

/-- The logistic of the second head. -/
def diffsOf (h2 : S100000x128.Idx → EReal) (Wd : S128x1.Idx → EReal) (bd : S1.Idx → EReal) : S100000x1.Idx → EReal :=
  fun i => Ideal.logistic (head (n := 100000) h2 Wd bd i)

/-- The first result: the first head minus the logistic of the second. -/
def result0 (x : S100000x128.Idx → EReal) (ei : S2x1600000.Idx → BitVec 32) (Wl1 Wr1 : S128x128.Idx → EReal)
    (b1 : S128.Idx → EReal) (Wl2 Wr2 : S128x128.Idx → EReal) (b2 : S128.Idx → EReal) (Wp : S128x1.Idx → EReal)
    (bp : S1.Idx → EReal) (Wd : S128x1.Idx → EReal) (bd : S1.Idx → EReal) : S100000x1.Idx → EReal :=
  subf (F := Ideal) (φ := .f32) (predsOf (hidden2 (hidden1 x ei Wl1 Wr1 b1) ei Wl2 Wr2 b2) Wp bp)
    (diffsOf (hidden2 (hidden1 x ei Wl1 Wr1 b1) ei Wl2 Wr2 b2) Wd bd)

/-- The second result: their sum. -/
def result1 (x : S100000x128.Idx → EReal) (ei : S2x1600000.Idx → BitVec 32) (Wl1 Wr1 : S128x128.Idx → EReal)
    (b1 : S128.Idx → EReal) (Wl2 Wr2 : S128x128.Idx → EReal) (b2 : S128.Idx → EReal) (Wp : S128x1.Idx → EReal)
    (bp : S1.Idx → EReal) (Wd : S128x1.Idx → EReal) (bd : S1.Idx → EReal) : S100000x1.Idx → EReal :=
  addf (F := Ideal) (φ := .f32) (predsOf (hidden2 (hidden1 x ei Wl1 Wr1 b1) ei Wl2 Wr2 b2) Wp bp)
    (diffsOf (hidden2 (hidden1 x ei Wl1 Wr1 b1) ei Wl2 Wr2 b2) Wd bd)

end Cert.KernelIdeal.Net

end
-- ==== Proof.KernelValue.lean ====
/-
  What the idealized kernel program leaves in its two result buffers.

  The program is five stretches: host operations, the first pallas_call, host operations, the second pallas_call, and
  two last host operations.  The buffer contents at each boundary are followed from the launch memory: the first
  stretch forms the edge rows, the scale column and the first layer's summed messages; the first call leaves the first
  layer's output; the second stretch aggregates that output along the same edges; the second call leaves the two
  heads; the last stretch subtracts and adds them.
-/
import proofs.«174420_j55602646614393_2_alg».proof.Proof.FrameKept
import proofs.«174420_j55602646614393_2_alg».proof.Proof.Region0
import proofs.«174420_j55602646614393_2_alg».proof.Proof.Region1
import proofs.«174420_j55602646614393_2_alg».proof.Proof.Network

set_option maxRecDepth 16384

noncomputable section

namespace Cert.KernelIdeal.Val

open Idealize.ShloMosaic Idealize.ShloMosaic.TcCoe Idealize.SL.Sem
open Cert.KernelIdeal Cert.KernelIdeal.Gen Cert.KernelIdeal.Chain Cert.KernelIdeal.Net Cert.Sage

variable (m : (ℓ : Loc nD τ sig) → Buf (Elt Ideal) ℓ) (ρ : Dev nD → PrngReg)

/-! ## At the first call's entry -/

theorem V1_v24 (c : Dev nD) : V1 m ρ c main_v24 = aggregateOf (srcRow (m ((c : Thread nD τ).loc main_arg1))) (dstRow (m ((c : Thread nD τ).loc main_arg1))) (m ((c : Thread nD τ).loc main_arg0)) :=
  hostOps0_main_v24 (W0 m ρ c)
theorem V1_v12 (c : Dev nD) : V1 m ρ c main_v12 = recipOf (dstRow (m ((c : Thread nD τ).loc main_arg1))) := hostOps0_main_v12 (W0 m ρ c)
theorem W1_v1 (c : Dev nD) : W1 m ρ c (Proc.devRef .tc main_v1) = srcRow (m ((c : Thread nD τ).loc main_arg1)) := hostOps0_main_v1 (W0 m ρ c)
theorem W1_v3 (c : Dev nD) : W1 m ρ c (Proc.devRef .tc main_v3) = dstRow (m ((c : Thread nD τ).loc main_arg1)) := hostOps0_main_v3 (W0 m ρ c)
theorem W1_arg0 (c : Dev nD) : W1 m ρ c (Proc.devRef .tc main_arg0) = (m ((c : Thread nD τ).loc main_arg0)) := hostOps0_main_arg0 (W0 m ρ c)
theorem W1_arg2 (c : Dev nD) : W1 m ρ c (Proc.devRef .tc main_arg2) = (m ((c : Thread nD τ).loc main_arg2)) := hostOps0_main_arg2 (W0 m ρ c)
theorem W1_arg3 (c : Dev nD) : W1 m ρ c (Proc.devRef .tc main_arg3) = (m ((c : Thread nD τ).loc main_arg3)) := hostOps0_main_arg3 (W0 m ρ c)
theorem W1_arg4 (c : Dev nD) : W1 m ρ c (Proc.devRef .tc main_arg4) = (m ((c : Thread nD τ).loc main_arg4)) := hostOps0_main_arg4 (W0 m ρ c)
theorem W1_arg5 (c : Dev nD) : W1 m ρ c (Proc.devRef .tc main_arg5) = (m ((c : Thread nD τ).loc main_arg5)) := hostOps0_main_arg5 (W0 m ρ c)
theorem W1_arg6 (c : Dev nD) : W1 m ρ c (Proc.devRef .tc main_arg6) = (m ((c : Thread nD τ).loc main_arg6)) := hostOps0_main_arg6 (W0 m ρ c)
theorem W1_arg7 (c : Dev nD) : W1 m ρ c (Proc.devRef .tc main_arg7) = (m ((c : Thread nD τ).loc main_arg7)) := hostOps0_main_arg7 (W0 m ρ c)
theorem W1_arg8 (c : Dev nD) : W1 m ρ c (Proc.devRef .tc main_arg8) = (m ((c : Thread nD τ).loc main_arg8)) := hostOps0_main_arg8 (W0 m ρ c)
theorem W1_arg9 (c : Dev nD) : W1 m ρ c (Proc.devRef .tc main_arg9) = (m ((c : Thread nD τ).loc main_arg9)) := hostOps0_main_arg9 (W0 m ρ c)
theorem W1_arg10 (c : Dev nD) : W1 m ρ c (Proc.devRef .tc main_arg10) = (m ((c : Thread nD τ).loc main_arg10)) := hostOps0_main_arg10 (W0 m ρ c)
theorem W1_arg11 (c : Dev nD) : W1 m ρ c (Proc.devRef .tc main_arg11) = (m ((c : Thread nD τ).loc main_arg11)) := hostOps0_main_arg11 (W0 m ρ c)

/-- THE FIRST LAYER'S OUTPUT, as the first call leaves it. -/
theorem first_call (c : Dev nD) :
    Reg0.hidden (V1 m ρ) c = hidden1 (m ((c : Thread nD τ).loc main_arg0)) (m ((c : Thread nD τ).loc main_arg1)) (m ((c : Thread nD τ).loc main_arg2)) (m ((c : Thread nD τ).loc main_arg3)) (m ((c : Thread nD τ).loc main_arg4)) := by
  unfold Reg0.hidden hidden1
  rw [V1_v24 m ρ c, V1_v12 m ρ c]
  rw [show V1 m ρ c main_arg0 = (m ((c : Thread nD τ).loc main_arg0)) from W1_arg0 m ρ c, show V1 m ρ c main_arg2 = (m ((c : Thread nD τ).loc main_arg2)) from W1_arg2 m ρ c,
    show V1 m ρ c main_arg3 = (m ((c : Thread nD τ).loc main_arg3)) from W1_arg3 m ρ c, show V1 m ρ c main_arg4 = (m ((c : Thread nD τ).loc main_arg4)) from W1_arg4 m ρ c]

/-! ## At the first call's exit -/

theorem W2_v25 (c : Dev nD) :
    W2 m ρ c (Proc.devRef .tc main_v25) = hidden1 (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 6).trans ((Reg0.final (V1 m ρ) c).trans (first_call m ρ c))
theorem W2_v12 (c : Dev nD) : W2 m ρ c (Proc.devRef .tc main_v12) = recipOf (dstRow (m ((c : Thread nD τ).loc main_arg1))) :=
  ((W2_arr m ρ c 1).trans (((dat0 (V1 m ρ) c).arrAt_in 1 rfl _).trans (A_eq0 (V1 m ρ) c 1))).trans (V1_v12 m ρ c)
theorem W2_v1 (c : Dev nD) : W2 m ρ c (Proc.devRef .tc main_v1) = srcRow (m ((c : Thread nD τ).loc main_arg1)) :=
  (W2_of_ne m ρ c main_v1 (by decide)).trans (W1_v1 m ρ c)
theorem W2_v3 (c : Dev nD) : W2 m ρ c (Proc.devRef .tc main_v3) = dstRow (m ((c : Thread nD τ).loc main_arg1)) :=
  (W2_of_ne m ρ c main_v3 (by decide)).trans (W1_v3 m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)
theorem W2_arg10 (c : Dev nD) : W2 m ρ c (Proc.devRef .tc main_arg10) = (m ((c : Thread nD τ).loc main_arg10)) :=
  (W2_of_ne m ρ c main_arg10 (by decide)).trans (W1_arg10 m ρ c)
theorem W2_arg11 (c : Dev nD) : W2 m ρ c (Proc.devRef .tc main_arg11) = (m ((c : Thread nD τ).loc main_arg11)) :=
  (W2_of_ne m ρ c main_arg11 (by decide)).trans (W1_arg11 m ρ c)

/-! ## At the second call's entry -/

theorem V3_v36 (c : Dev nD) :
    V3 m ρ c main_v36 = aggregateOf (srcRow (m ((c : Thread nD τ).loc main_arg1))) (dstRow (m ((c : Thread nD τ).loc main_arg1))) (hidden1 (m ((c : Thread nD τ).loc main_arg0)) (m ((c : Thread nD τ).loc main_arg1)) (m ((c : Thread nD τ).loc main_arg2)) (m ((c : Thread nD τ).loc main_arg3)) (m ((c : Thread nD τ).loc main_arg4))) := by
  refine (hostOps1_main_v36 (W2 m ρ c)).trans ?_
  rw [W2_v1 m ρ c, W2_v3 m ρ c, W2_v25 m ρ c]
theorem V3_v12 (c : Dev nD) : V3 m ρ c main_v12 = recipOf (dstRow (m ((c : Thread nD τ).loc main_arg1))) :=
  (hostOps1_main_v12 (W2 m ρ c)).trans (W2_v12 m ρ c)
theorem V3_v25 (c : Dev nD) : V3 m ρ c main_v25 = hidden1 (m ((c : Thread nD τ).loc main_arg0)) (m ((c : Thread nD τ).loc main_arg1)) (m ((c : Thread nD τ).loc main_arg2)) (m ((c : Thread nD τ).loc main_arg3)) (m ((c : Thread nD τ).loc main_arg4)) :=
  (hostOps1_main_v25 (W2 m ρ c)).trans (W2_v25 m ρ c)
theorem V3_arg5 (c : Dev nD) : V3 m ρ c main_arg5 = (m ((c : Thread nD τ).loc main_arg5)) :=
  (hostOps1_main_arg5 (W2 m ρ c)).trans (W2_arg5 m ρ c)
theorem V3_arg6 (c : Dev nD) : V3 m ρ c main_arg6 = (m ((c : Thread nD τ).loc main_arg6)) :=
  (hostOps1_main_arg6 (W2 m ρ c)).trans (W2_arg6 m ρ c)
theorem V3_arg7 (c : Dev nD) : V3 m ρ c main_arg7 = (m ((c : Thread nD τ).loc main_arg7)) :=
  (hostOps1_main_arg7 (W2 m ρ c)).trans (W2_arg7 m ρ c)
theorem V3_arg8 (c : Dev nD) : V3 m ρ c main_arg8 = (m ((c : Thread nD τ).loc main_arg8)) :=
  (hostOps1_main_arg8 (W2 m ρ c)).trans (W2_arg8 m ρ c)
theorem V3_arg9 (c : Dev nD) : V3 m ρ c main_arg9 = (m ((c : Thread nD τ).loc main_arg9)) :=
  (hostOps1_main_arg9 (W2 m ρ c)).trans (W2_arg9 m ρ c)
theorem V3_arg10 (c : Dev nD) : V3 m ρ c main_arg10 = (m ((c : Thread nD τ).loc main_arg10)) :=
  (hostOps1_main_arg10 (W2 m ρ c)).trans (W2_arg10 m ρ c)
theorem V3_arg11 (c : Dev nD) : V3 m ρ c main_arg11 = (m ((c : Thread nD τ).loc main_arg11)) :=
  (hostOps1_main_arg11 (W2 m ρ c)).trans (W2_arg11 m ρ c)

/-- The second layer's hidden rows, from the launch arrays. -/
theorem second_hidden (c : Dev nD) :
    Reg1.hidden (V3 m ρ) c
      = hidden2 (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)) := by
  unfold Reg1.hidden hidden2
  rw [V3_v36 m ρ c, V3_v12 m ρ c, V3_v25 m ρ c, V3_arg5 m ρ c, V3_arg6 m ρ c, V3_arg7 m ρ c]

/-! ## At the second call's exit, and at the end -/

theorem W4_preds (c : Dev nD) :
    W4 m ρ c (Proc.devRef .tc main_v37_0)
      = predsOf (hidden2 (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg8)) (m ((c : Thread nD τ).loc main_arg9)) := by
  refine (W4_arr m ρ c 10).trans ((Reg1.final10 (V3 m ρ) c).trans ?_)
  unfold Reg1.preds predsOf
  rw [second_hidden m ρ c, V3_arg8 m ρ c, V3_arg9 m ρ c]

theorem W4_diffs (c : Dev nD) :
    W4 m ρ c (Proc.devRef .tc main_v37_1)
      = diffsOf (hidden2 (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg10)) (m ((c : Thread nD τ).loc main_arg11)) := by
  refine (W4_arr m ρ c 11).trans ((Reg1.final11 (V3 m ρ) c).trans ?_)
  unfold Reg1.diffs diffsOf
  rw [second_hidden m ρ c, V3_arg10 m ρ c, V3_arg11 m ρ c]

/-- THE FIRST RESULT BUFFER at the end of the run. -/
theorem W5_v38 (c : Dev nD) :
    W5 m ρ c (Proc.devRef .tc main_v38)
      = result0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (hostOps2_main_v38 (W4 m ρ c)).trans ?_
  unfold result0
  rw [W4_preds m ρ c, W4_diffs m ρ c]

/-- THE SECOND RESULT BUFFER at the end of the run. -/
theorem W5_v39 (c : Dev nD) :
    W5 m ρ c (Proc.devRef .tc main_v39)
      = result1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (hostOps2_main_v39 (W4 m ρ c)).trans ?_
  unfold result1
  rw [W4_preds m ρ c, W4_diffs m ρ c]

end Cert.KernelIdeal.Val

end
-- ==== Proof.RefLayer.lean ====
/-
  The reference's operations for one layer and one head, read at an index.

  The reference divides the summed messages by the larger of the in-degree and one (laid across the 128 features),
  multiplies by `Wl`, adds the bias laid along the rows, adds the node's own features times `Wr`, and takes the
  positive part.  Dividing by a divisor that is not zero is multiplying by its reciprocal, and the three summands may be
  added in any order: so this is the layer of the same operands with the reciprocal as the scale.
-/
import proofs.«174420_j55602646614393_2_alg».proof.Proof.Gen.ReferenceIdeal
import proofs.«174420_j55602646614393_2_alg».proof.Proof.Spec
import proofs.«174420_j55602646614393_2_alg».proof.Proof.LibPlainProduct
import Idealize.ShloMosaic.Lib.Pipeline.Value
import Idealize.ShloMosaic.Lib.ValueIdx
import Idealize.ShloMosaic.Lib.IdealHost

set_option maxRecDepth 16384

noncomputable section

namespace Cert.ReferenceIdeal.Layer

open Idealize.ShloMosaic Idealize.ShloMosaic.ValueIdx Cert.ReferenceIdeal Cert.ReferenceIdeal.Gen Cert.Sage

/-- The reference's 100000×128 by 128×128 product is the plain one. -/
theorem dot_wide : dot_S100000x128_S128x128_S100000x128_1_0_0_1_n_n = DotDims.plain 100000 128 128 := rfl

/-- The heads' 100000×128 by 128×1 product is the plain one. -/
theorem dot_col : dot_S100000x128_S128x1_S100000x1_1_0_0_1_n_n = DotDims.plain 100000 128 1 := rfl

/-- A float word broadcast to any shape reads that word everywhere. -/
theorem splat_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-- A vector over the nodes as a column, at row `r`. -/
theorem col_of_vec {α : Type} (v : S100000.Idx → α) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => match a with
    | ⟨0, _⟩ => by show r.val = if (100000 : Nat) = 1 then 0 else r.val; rw [if_neg (by decide)])

/-- A column laid across the 128 features, at `(r, k)`. -/
theorem wide_of_col {α : Type} (u : S100000x1.Idx → α) (r : Fin 100000) (k : Fin 128) :
    broadcastInDim S100000x128 ![0, 1] bcast_S100000x1_S100000x128_0_1 u (ix2 r k) = u (ix2 r (0 : Fin 1)) :=
  broadcastInDim_apply _ bcast_S100000x1_S100000x128_0_1 u (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])

/-- The bias laid along every row, at `(r, j)`. -/
theorem bias_wide {α : Type} (b : S128.Idx → α) (r : Fin 100000) (j : Fin 128) :
    broadcastInDim S100000x128 ![0, 1] bcast_S1x128_S100000x128_0_1 (broadcastInDim S1x128 ![1] bcast_S128_S1x128_1 b) (ix2 r j)
      = b (ix1 j) := by
  rw [broadcastInDim_apply _ bcast_S1x128_S100000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])]
  exact broadcastInDim_apply _ bcast_S128_S1x128_1 b (ix2 (0 : Fin 1) j) (ix1 j) (fun a => match a with
    | ⟨0, _⟩ => by show j.val = if (128 : Nat) = 1 then 0 else j.val; rw [if_neg (by decide)])

/-- A one-entry bias laid down a column, at row `r`. -/
theorem bias_col {α : Type} (b : S1.Idx → α) (r : Fin 100000) :
    broadcastInDim S100000x1 ![0, 1] bcast_S1x1_S100000x1_0_1 (broadcastInDim S1x1 ![1] bcast_S1_S1x1_1 b) (ix2 r (0 : Fin 1))
      = b (ix1 (0 : Fin 1)) := by
  rw [broadcastInDim_apply _ bcast_S1x1_S100000x1_0_1 _ (ix2 r (0 : Fin 1)) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else 0; rw [if_pos rfl])]
  exact broadcastInDim_apply _ bcast_S1_S1x1_1 b (ix2 (0 : Fin 1) (0 : Fin 1)) (ix1 (0 : Fin 1)) (fun a => match a with
    | ⟨0, _⟩ => by show 0 = if (1 : Nat) = 1 then 0 else 0; rw [if_pos rfl])

/-- The all-ones vector over the nodes, as the reference prints it. -/
abbrev onesN : S100000.Idx → EReal :=
  broadcastInDim S100000 ![] bcast_S_S100000 (constant (F := Ideal) S_ .f32 0x3F800000#32)

/-- ONE LAYER OF THE REFERENCE is the layer of the same operands, scaled by the reciprocal of the divisor. -/
theorem layer_eq (A h : S100000x128.Idx → EReal) (c : S100000.Idx → EReal) (Wl Wr : S128x128.Idx → EReal)
    (b : S128.Idx → EReal) :
    maximumf (F := Ideal) (φ := .f32)
        (addf (F := Ideal) (φ := .f32)
          (addf (F := Ideal) (φ := .f32)
            (Host.dotGeneral (F := Ideal) (φ₁ := .f32) (φ₂ := .f32) dot_S100000x128_S128x128_S100000x128_1_0_0_1_n_n none
              (Host.divf (F := Ideal) (φ := .f32) A
                (broadcastInDim S100000x128 ![0, 1] bcast_S100000x1_S100000x128_0_1
                  (broadcastInDim S100000x1 ![0] bcast_S100000_S100000x1_0 (maximumf (F := Ideal) (φ := .f32) c onesN))))
              Wl)
            (broadcastInDim S100000x128 ![0, 1] bcast_S1x128_S100000x128_0_1 (broadcastInDim S1x128 ![1] bcast_S128_S1x128_1 b)))
          (Host.dotGeneral (F := Ideal) (φ₁ := .f32) (φ₂ := .f32) dot_S100000x128_S128x128_S100000x128_1_0_0_1_n_n none h Wr))
        (broadcastInDim S100000x128 ![] bcast_S_S100000x128 (constant (F := Ideal) S_ .f32 0x00000000#32))
      = layer (n := 100000) A
          (broadcastInDim S100000x1 ![0] bcast_S100000_S100000x1_0
            (Host.divf (F := Ideal) (φ := .f32) onesN (maximumf (F := Ideal) (φ := .f32) c onesN)))
          h Wl Wr b := by
  funext i
  obtain ⟨r, j, rfl⟩ : ∃ (r : Fin 100000) (j : Fin 128), i = ix2 r j := ⟨i 0, i 1, eq_ix2 i⟩
  rw [layer_apply]
  unfold layerAt
  show max ((Host.dotGeneral (F := Ideal) (φ₁ := .f32) (φ₂ := .f32) dot_S100000x128_S128x128_S100000x128_1_0_0_1_n_n none _ Wl (ix2 r j)
        + broadcastInDim S100000x128 ![0, 1] bcast_S1x128_S100000x128_0_1 (broadcastInDim S1x128 ![1] bcast_S128_S1x128_1 b) (ix2 r j))
      + Host.dotGeneral (F := Ideal) (φ₁ := .f32) (φ₂ := .f32) dot_S100000x128_S128x128_S100000x128_1_0_0_1_n_n none h Wr (ix2 r j))
      (broadcastInDim S100000x128 ![] bcast_S_S100000x128 (constant (F := Ideal) S_ .f32 0x00000000#32) (ix2 r j)) = _
  rw [Cert.PlainProduct.dotGeneral_plain_apply' _ dot_wide, Cert.PlainProduct.dotGeneral_plain_apply' _ dot_wide, bias_wide,
    splat_apply, add_right_comm]
  congr 3
  refine Finset.sum_congr rfl fun k _ => ?_
  show Ideal.div (A (ix2 r k))
      (broadcastInDim S100000x128 ![0, 1] bcast_S100000x1_S100000x128_0_1
        (broadcastInDim S100000x1 ![0] bcast_S100000_S100000x1_0 (maximumf (F := Ideal) (φ := .f32) c onesN)) (ix2 r k)) * Wl (ix2 k j) = _
  rw [wide_of_col, col_of_vec, col_of_vec]
  show Ideal.div (A (ix2 r k)) (max (c (ix1 r)) (onesN (ix1 r))) * Wl (ix2 k j)
    = (A (ix2 r k) * Ideal.div (onesN (ix1 r)) (max (c (ix1 r)) (onesN (ix1 r)))) * Wl (ix2 k j)
  rw [show onesN (ix1 r) = oneWord from splat_apply _ _ _, mul_recip_max]

/-- ONE HEAD OF THE REFERENCE is the head of the same operands. -/
theorem head_eq (h : S100000x128.Idx → EReal) (w : S128x1.Idx → EReal) (b : S1.Idx → EReal) :
    addf (F := Ideal) (φ := .f32)
        (Host.dotGeneral (F := Ideal) (φ₁ := .f32) (φ₂ := .f32) dot_S100000x128_S128x1_S100000x1_1_0_0_1_n_n none h w)
        (broadcastInDim S100000x1 ![0, 1] bcast_S1x1_S100000x1_0_1 (broadcastInDim S1x1 ![1] bcast_S1_S1x1_1 b))
      = head (n := 100000) h w b := by
  funext i
  obtain ⟨r, rfl⟩ : ∃ r : Fin 100000, i = ix2 r (0 : Fin 1) :=
    ⟨i 0, (eq_ix2 i).trans (congrArg (ix2 (n0 := 100000) (n1 := 1) (i 0)) (Subsingleton.elim (α := Fin 1) (i 1) 0))⟩
  rw [head_apply]
  unfold headAt
  show Host.dotGeneral (F := Ideal) (φ₁ := .f32) (φ₂ := .f32) dot_S100000x128_S128x1_S100000x1_1_0_0_1_n_n none h w (ix2 r (0 : Fin 1))
      + broadcastInDim S100000x1 ![0, 1] bcast_S1x1_S100000x1_0_1 (broadcastInDim S1x1 ![1] bcast_S1_S1x1_1 b) (ix2 r (0 : Fin 1)) = _
  rw [Cert.PlainProduct.dotGeneral_plain_apply' _ dot_col, bias_col]

/-- THE REFERENCE'S SIGMOID, spelt `1 / (1 + exp (−x))`, is the logistic function at every entry. -/
theorem sigmoid_eq (x : S100000x1.Idx → EReal) :
    Host.divf (F := Ideal) (φ := .f32)
        (broadcastInDim S100000x1 ![] bcast_S_S100000x1 (constant (F := Ideal) S_ .f32 0x3F800000#32))
        (addf (F := Ideal) (φ := .f32)
          (broadcastInDim S100000x1 ![] bcast_S_S100000x1 (constant (F := Ideal) S_ .f32 0x3F800000#32))
          (Host.exp (F := Ideal) (φ := .f32) (Host.negf (F := Ideal) (φ := .f32) x)))
      = fun i => Ideal.logistic (x i) := by
  funext i
  show Ideal.div (broadcastInDim S100000x1 ![] bcast_S_S100000x1 (constant (F := Ideal) S_ .f32 0x3F800000#32) i)
      (broadcastInDim S100000x1 ![] bcast_S_S100000x1 (constant (F := Ideal) S_ .f32 0x3F800000#32) i + Ideal.exp (-(x i)))
    = Ideal.logistic (x i)
  rw [splat_apply, Ideal.ofBits_one_f32]
  rfl

end Cert.ReferenceIdeal.Layer

end
-- ==== Proof.RefValue.lean ====
/-
  The reference program's stages are the network's functions.

  The reference gathers, scatters and counts with the very operations the kernel program applies on the host, so its
  summed messages and its in-degrees are the shared chains, by unfolding the stages' definitions and nothing else.
  Each of its layers is then the layer function with the reciprocal scale, each head the head function, and its
  spelt-out sigmoid the logistic function.
-/
import proofs.«174420_j55602646614393_2_alg».proof.Proof.Gen.ReferenceIdeal.Read
import proofs.«174420_j55602646614393_2_alg».proof.Proof.RefLayer
import proofs.«174420_j55602646614393_2_alg».proof.Proof.Network

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.ReferenceIdeal.Layer
open Cert.KernelIdeal.Chain Cert.KernelIdeal.Net Cert.Sage

/-- The first layer's summed messages are the shared aggregation of the node features. -/
theorem agg1 (x0 : S100000x128.Idx → EReal) (x1 : S2x1600000.Idx → BitVec 32) :
    val_main_v13 (F := Ideal) x0 x1 = aggregateOf (srcRow x1) (dstRow x1) x0 := rfl

/-- The in-degrees, as the first layer counts them. -/
theorem deg1 (x1 : S2x1600000.Idx → BitVec 32) : val_main_v17 (F := Ideal) x1 = degreeOf (dstRow x1) := rfl

/-- THE FIRST LAYER of the reference. -/
theorem hidden1_eq (x0 : S100000x128.Idx → EReal) (x1 : S2x1600000.Idx → BitVec 32) (x2 x3 : S128x128.Idx → EReal) (x4 : S128.Idx → EReal) :
    val_main_v29 (F := Ideal) x0 x1 x2 x3 x4 = hidden1 x0 x1 x2 x3 x4 := by
  unfold val_main_v29 val_main_v28 val_main_v26 val_main_v27 val_main_v25 val_main_v24 val_main_v23 val_main_v22
    val_main_v21 val_main_v20 val_main_v19 val_main_v18 val_main_cst_3 val_main_call0_v0 val_main_call0_cst hidden1
  rw [agg1, deg1]
  exact layer_eq (aggregateOf (srcRow x1) (dstRow x1) x0) x0 (degreeOf (dstRow x1)) x2 x3 x4

/-- The second layer's summed messages are the shared aggregation of the first layer's output. -/
theorem agg2 (x0 : S100000x128.Idx → EReal) (x1 : S2x1600000.Idx → BitVec 32) (x2 x3 : S128x128.Idx → EReal) (x4 : S128.Idx → EReal) :
    val_main_v39 (F := Ideal) x0 x1 x2 x3 x4 = aggregateOf (srcRow x1) (dstRow x1) (val_main_v29 (F := Ideal) x0 x1 x2 x3 x4) := rfl

/-- The in-degrees, as the second layer counts them again. -/
theorem deg2 (x1 : S2x1600000.Idx → BitVec 32) : val_main_v43 (F := Ideal) x1 = degreeOf (dstRow x1) := rfl

/-- THE SECOND LAYER of the reference. -/
theorem hidden2_eq (x0 : S100000x128.Idx → EReal) (x1 : S2x1600000.Idx → BitVec 32) (x2 x3 : S128x128.Idx → EReal) (x4 : S128.Idx → EReal) (x5 x6 : S128x128.Idx → EReal) (x7 : S128.Idx → EReal) :
    val_main_v55 (F := Ideal) x0 x1 x2 x3 x4 x5 x6 x7 = hidden2 (hidden1 x0 x1 x2 x3 x4) x1 x5 x6 x7 := by
  unfold val_main_v55 val_main_v54 val_main_v52 val_main_v53 val_main_v51 val_main_v50 val_main_v49 val_main_v48
    val_main_v47 val_main_v46 val_main_v45 val_main_v44 val_main_cst_9 val_main_call1_v0 val_main_call1_cst hidden2
  rw [agg2, deg2, hidden1_eq]
  exact layer_eq (aggregateOf (srcRow x1) (dstRow x1) (hidden1 x0 x1 x2 x3 x4)) (hidden1 x0 x1 x2 x3 x4) (degreeOf (dstRow x1)) x5 x6 x7

/-- THE FIRST HEAD of the reference. -/
theorem preds_eq (x0 : S100000x128.Idx → EReal) (x1 : S2x1600000.Idx → BitVec 32) (x2 x3 : S128x128.Idx → EReal) (x4 : S128.Idx → EReal) (x5 x6 : S128x128.Idx → EReal) (x7 : S128.Idx → EReal) (x8 : S128x1.Idx → EReal) (x9 : S1.Idx → EReal) :
    val_main_v59 (F := Ideal) x0 x1 x2 x3 x4 x5 x6 x7 x8 x9 = predsOf (hidden2 (hidden1 x0 x1 x2 x3 x4) x1 x5 x6 x7) x8 x9 := by
  unfold val_main_v59 val_main_v58 val_main_v57 val_main_v56 predsOf
  rw [hidden2_eq]
  exact head_eq _ x8 x9

/-- THE SECOND HEAD of the reference, through its spelt-out sigmoid. -/
theorem diffs_eq (x0 : S100000x128.Idx → EReal) (x1 : S2x1600000.Idx → BitVec 32) (x2 x3 : S128x128.Idx → EReal) (x4 : S128.Idx → EReal) (x5 x6 : S128x128.Idx → EReal) (x7 : S128.Idx → EReal) (x10 : S128x1.Idx → EReal) (x11 : S1.Idx → EReal) :
    val_main_v69 (F := Ideal) x0 x1 x2 x3 x4 x5 x6 x7 x10 x11 = diffsOf (hidden2 (hidden1 x0 x1 x2 x3 x4) x1 x5 x6 x7) x10 x11 := by
  unfold val_main_v69 val_main_v68 val_main_cst_11 val_main_v67 val_main_v66 val_main_cst_10 val_main_v65 val_main_v64
    val_main_v63 val_main_v62 val_main_v61 val_main_v60 diffsOf
  rw [hidden2_eq, head_eq]
  exact sigmoid_eq _

/-- THE REFERENCE'S FIRST RESULT. -/
theorem result0_eq (x0 : S100000x128.Idx → EReal) (x1 : S2x1600000.Idx → BitVec 32) (x2 x3 : S128x128.Idx → EReal) (x4 : S128.Idx → EReal) (x5 x6 : S128x128.Idx → EReal) (x7 : S128.Idx → EReal) (x8 : S128x1.Idx → EReal) (x9 : S1.Idx → EReal) (x10 : S128x1.Idx → EReal) (x11 : S1.Idx → EReal) :
    val_main_v70 (F := Ideal) x0 x1 x2 x3 x4 x5 x6 x7 x8 x9 x10 x11 = result0 x0 x1 x2 x3 x4 x5 x6 x7 x8 x9 x10 x11 := by
  unfold val_main_v70 result0
  rw [preds_eq, diffs_eq]

/-- THE REFERENCE'S SECOND RESULT. -/
theorem result1_eq (x0 : S100000x128.Idx → EReal) (x1 : S2x1600000.Idx → BitVec 32) (x2 x3 : S128x128.Idx → EReal) (x4 : S128.Idx → EReal) (x5 x6 : S128x128.Idx → EReal) (x7 : S128.Idx → EReal) (x8 : S128x1.Idx → EReal) (x9 : S1.Idx → EReal) (x10 : S128x1.Idx → EReal) (x11 : S1.Idx → EReal) :
    val_main_v71 (F := Ideal) x0 x1 x2 x3 x4 x5 x6 x7 x8 x9 x10 x11 = result1 x0 x1 x2 x3 x4 x5 x6 x7 x8 x9 x10 x11 := by
  unfold val_main_v71 result1
  rw [preds_eq, diffs_eq]

end Cert.ReferenceIdeal.RefValue

end
-- ==== Proof.lean ====
/-
  A two-layer mean-aggregation graph network with two heads, as a Pallas kernel program and as its jnp reference,
  are one function over the extended reals.

  Both programs sum, for every node, the feature rows of its in-neighbours (a gather along the edges' sources and a
  scatter-add at their destinations) and scale by the node's in-degree, at least one; a layer is then
  `max ((scaled sum) · Wl + h · Wr + b) 0`, and the two results are `p − σ(d)` and `p + σ(d)` for two affine heads
  `p`, `d` of the second layer and the logistic function `σ`.

  The kernel program keeps the gather, the scatter-add and the count on the host, multiplies by the RECIPROCAL of the
  clamped degree inside two pallas_calls that walk the nodes in 20 blocks of 5000 rows, adds the bias last, and uses the
  logistic operation; the reference DIVIDES by the clamped degree, adds the bias before the node's own term, and spells
  the logistic out as `1 / (1 + exp (−x))`.  At the extended reals a change of float format is the identity; a product
  into a zero accumulator and the host's product are the same contraction; the logistic operation is by definition
  that quotient; addition is commutative and associative; and for a divisor that is not zero — the larger of
  anything and one never is — multiplying by its reciprocal is dividing by it, at the infinities too.  No step needs
  the inputs to be finite, and neither the gather nor the scatter-add is ever opened: both programs apply the same
  operations to the same operands.

  The modules: `Spec` (the layer and the head as functions, and the law about the reciprocal), `Payload` (the kernels'
  arithmetic at an index), `Region0` / `Region1` (each call's output arrays as whole-array functions of the arrays it
  finds), `HostChain` and `Network` (the host operations and the whole network as functions of the arguments),
  `KernelValue` (the kernel program's result buffers), `RefLayer` and `RefValue` (the reference's stages).
-/
import proofs.«174420_j55602646614393_2_alg».proof.Defs
import proofs.«174420_j55602646614393_2_alg».proof.Proof.Gen.Kernel
import proofs.«174420_j55602646614393_2_alg».proof.Proof.Gen.Kernel.Skeleton
import proofs.«174420_j55602646614393_2_alg».proof.Proof.Gen.Kernel.Launch
import proofs.«174420_j55602646614393_2_alg».proof.Proof.Gen.Kernel.Points
import proofs.«174420_j55602646614393_2_alg».proof.Proof.Gen.Kernel.Frame
import proofs.«174420_j55602646614393_2_alg».proof.Proof.Gen.KernelIdeal
import proofs.«174420_j55602646614393_2_alg».proof.Proof.Gen.KernelIdeal.Skeleton
import proofs.«174420_j55602646614393_2_alg».proof.Proof.Gen.KernelIdeal.Launch
import proofs.«174420_j55602646614393_2_alg».proof.Proof.Gen.KernelIdeal.Points
import proofs.«174420_j55602646614393_2_alg».proof.Proof.Gen.KernelIdeal.Frame
import proofs.«174420_j55602646614393_2_alg».proof.Proof.Gen.ReferenceIdeal
import proofs.«174420_j55602646614393_2_alg».proof.Proof.Gen.Pre_finite_inputs
import proofs.«174420_j55602646614393_2_alg».proof.Proof.Gen.ReferenceIdeal.Run
import proofs.«174420_j55602646614393_2_alg».proof.Proof.Gen.ReferenceIdeal.Read
import proofs.«174420_j55602646614393_2_alg».proof.Proof.KernelValue
import proofs.«174420_j55602646614393_2_alg».proof.Proof.RefValue
import Idealize.ShloMosaic.Adequacy
import Idealize.ShloMosaic.Init

noncomputable section

namespace Cert.Proof

open Idealize.ShloMosaic Idealize.ShloMosaic.TcCoe Idealize.SL.Sem
open Cert.KernelIdeal.Net

/-- The word-level kernel program runs and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference is host operations only: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs, from memories that agree on the arguments, end with their two results at the network's two
    functions of those arguments. -/
theorem algebraic : Cert.algebraic_KernelIdeal_ReferenceIdeal := by
  intro m ρ m' ρ' _ hagree
  refine ⟨fun c => result0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => result1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Val.W5_v38 m ρ c), (h c).2.1.trans (Cert.KernelIdeal.Val.W5_v39 m ρ c), (h c).2.2⟩)
      (Cert.KernelIdeal.GenP.frame_results m ρ)
  · refine (θ_run Cert.ReferenceIdeal.defs _ _).mono (fun r h c => ⟨?_, ?_, (h c).2.2⟩)
      (Cert.ReferenceIdeal.Value.run (F := Ideal) m' ρ')
    · obtain ⟨a0, a1, a2, a3, a4, a5, a6, a7, a8, a9, a10, a11⟩ := hagree c
      rw [(h c).1, Cert.ReferenceIdeal.Read.val_main_v70_eq, Cert.ReferenceIdeal.RefValue.result0_eq,
        a0, a1, a2, a3, a4, a5, a6, a7, a8, a9, a10, a11]
    · obtain ⟨a0, a1, a2, a3, a4, a5, a6, a7, a8, a9, a10, a11⟩ := hagree c
      rw [(h c).2.1, Cert.ReferenceIdeal.Read.val_main_v71_eq, Cert.ReferenceIdeal.RefValue.result1_eq,
        a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
